-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)) (v2 : (c : Dev Cert.KernelIdeal.nD) → Buf (Elt Ideal) ((c.tc : Thread Cert.KernelIdeal.nD Cert.KernelIdeal.τ).loc Cert.KernelIdeal.main_v70_2)) (v3 : (c : Dev Cert.KernelIdeal.nD) → Buf (Elt Ideal) ((c.tc : Thread Cert.KernelIdeal.nD Cert.KernelIdeal.τ).loc Cert.KernelIdeal.main_v70_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_v70_2) = v2 c
          ∧ r.2.mem ((c.tc : Thread Cert.KernelIdeal.nD Cert.KernelIdeal.τ).loc Cert.KernelIdeal.main_v70_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1x128 .f32) (main_arg7 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128x128 .f32) (main_arg6 : FVec F S1x128 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S128 : Shape := ⟨1, ![128]⟩
abbrev S4000x128 : Shape := ⟨2, ![4000, 128]⟩
abbrev S50000x256 : Shape := ⟨2, ![50000, 256]⟩
abbrev S128x1 : Shape := ⟨2, ![128, 1]⟩
abbrev S1x1 : Shape := ⟨2, ![1, 1]⟩
abbrev S50000x1 : Shape := ⟨2, ![50000, 1]⟩
abbrev S50000x128 : Shape := ⟨2, ![50000, 128]⟩
abbrev S2000x256 : Shape := ⟨2, ![2000, 256]⟩
abbrev S2000x1 : Shape := ⟨2, ![2000, 1]⟩
abbrev S2000x128 : Shape := ⟨2, ![2000, 128]⟩

abbrev nBuf : Space → Nat
  | .hbm => 91
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S1x128, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .bf16⟩
  | .hbm, ⟨26, _⟩ => ⟨S1x128x128, .f32⟩
  | .hbm, ⟨27, _⟩ => ⟨S128x128, .f32⟩
  | .hbm, ⟨28, _⟩ => ⟨S128x128, .f32⟩
  | .hbm, ⟨29, _⟩ => ⟨S1x128x128, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x128, .bf16⟩
  | .hbm, ⟨50, _⟩ => ⟨S1x128x128, .f32⟩
  | .hbm, ⟨51, _⟩ => ⟨S128x128, .f32⟩
  | .hbm, ⟨52, _⟩ => ⟨S128x128, .f32⟩
  | .hbm, ⟨53, _⟩ => ⟨S1x128x128, .f32⟩
  | .hbm, ⟨54, _⟩ => ⟨S128x128, .f32⟩
  | .hbm, ⟨55, _⟩ => ⟨S128x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x128, .bf16⟩
  | .hbm, ⟨74, _⟩ => ⟨S1x128x128, .f32⟩
  | .hbm, ⟨75, _⟩ => ⟨S128x128, .f32⟩
  | .hbm, ⟨76, _⟩ => ⟨S128x128, .f32⟩
  | .hbm, ⟨77, _⟩ => ⟨S1x128x128, .f32⟩
  | .hbm, ⟨78, _⟩ => ⟨S128x128, .f32⟩
  | .hbm, ⟨79, _⟩ => ⟨S128x128, .f32⟩
  | .hbm, ⟨80, _⟩ => ⟨S1x128, .f32⟩
  | .hbm, ⟨81, _⟩ => ⟨S128, .f32⟩
  | .hbm, ⟨82, _⟩ => ⟨S1x128, .f32⟩
  | .hbm, ⟨83, _⟩ => ⟨S100000x128, .f32⟩
  | .hbm, ⟨84, _⟩ => ⟨S50000x256, .f32⟩
  | .hbm, ⟨85, _⟩ => ⟨S128x1, .f32⟩
  | .hbm, ⟨86, _⟩ => ⟨S1x1, .f32⟩
  | .hbm, ⟨87, _⟩ => ⟨S50000x1, .f32⟩
  | .hbm, ⟨88, _⟩ => ⟨S50000x128, .f32⟩
  | .hbm, ⟨89, _⟩ => ⟨S50000x128, .f32⟩
  | .hbm, ⟨90, _⟩ => ⟨S50000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .bf16⟩
  | .local _ .vmem, ⟨19, _⟩ => ⟨S4000x128, .bf16⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S4000x128, .f32⟩
  | .local _ .vmem, ⟨26, _⟩ => ⟨S4000x128, .f32⟩
  | .local _ .vmem, ⟨27, _⟩ => ⟨S2000x256, .f32⟩
  | .local _ .vmem, ⟨28, _⟩ => ⟨S2000x256, .f32⟩
  | .local _ .vmem, ⟨29, _⟩ => ⟨S128x1, .f32⟩
  | .local _ .vmem, ⟨30, _⟩ => ⟨S1x1, .f32⟩
  | .local _ .vmem, ⟨31, _⟩ => ⟨S2000x1, .f32⟩
  | .local _ .vmem, ⟨32, _⟩ => ⟨S2000x1, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_1 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_4 : Ref sig .tc := ⟨.hbm, 60, rfl⟩
abbrev main_v46 : Ref sig .tc := ⟨.hbm, 61, rfl⟩
abbrev main_v47 : Ref sig .tc := ⟨.hbm, 62, rfl⟩
abbrev main_c_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70_0 : Ref sig .tc := ⟨.hbm, 87, rfl⟩
abbrev main_v70_1 : Ref sig .tc := ⟨.hbm, 88, rfl⟩
abbrev main_v70_2 : Ref sig .tc := ⟨.hbm, 89, rfl⟩
abbrev main_v70_3 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32
abbrev cc3_sem4_0 : DmaSem sig := 33
abbrev cc3_sem4_1 : DmaSem sig := 34
abbrev cc3_sem5_0 : DmaSem sig := 35
abbrev cc3_sem5_1 : DmaSem sig := 36
abbrev cc3_sem6_0 : DmaSem sig := 37
abbrev cc3_sem6_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S100000x128_S50000x256 : S100000x128.ShapeCasts S50000x256
  transposes_S1x128_S128x1_1_0 : S1x128.Transposes [1, 0] S128x1
  shapeCasts_S1_S1x1 : S1.ShapeCasts S1x1
  inb_S2000x256_S2000x128_0_0 : ∀ a, (![0, 0] : Fin 2 → Nat) a + S2000x128.size a ≤ S2000x256.size a
  h_S2000x128 : 0 < S2000x128.numel
  shapeCasts_S2000x128_S2000x128 : S2000x128.ShapeCasts S2000x128
  inb_S2000x256_S2000x128_0_128 : ∀ a, (![0, 128] : Fin 2 → Nat) a + S2000x128.size a ≤ S2000x256.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  inb_S2000x128_S2000x128_0_0 : ∀ a, (![0, 0] : Fin 2 → Nat) a + S2000x128.size a ≤ S2000x128.size a
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S128x1.size a
  hwx3_1 : ∀ i : grid3.Coords, EltTy.bits .f32 = 32 ∨ (Rect.block (s := S128x1) S128x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .f32 = 32 ∨ (Rect.block (s := S50000x1) S2000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v14) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v67) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S128x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70_0) S2000x1.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v70_1) S2000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v70_2) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v70_3) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S128 : Shape := ⟨1, ![128]⟩
abbrev S50000x256 : Shape := ⟨2, ![50000, 256]⟩
abbrev S50000x128 : Shape := ⟨2, ![50000, 128]⟩
abbrev S50000x1 : Shape := ⟨2, ![50000, 1]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S1x128, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128x128, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S1x128x128, .f32⟩
  | .hbm, ⟨34, _⟩ => ⟨S128x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128x128, .f32⟩
  | .hbm, ⟨54, _⟩ => ⟨S128x128, .f32⟩
  | .hbm, ⟨55, _⟩ => ⟨S100000x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128x128, .f32⟩
  | .hbm, ⟨62, _⟩ => ⟨S128x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x128x128, .f32⟩
  | .hbm, ⟨82, _⟩ => ⟨S128x128, .f32⟩
  | .hbm, ⟨83, _⟩ => ⟨S100000x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S1x128x128, .f32⟩
  | .hbm, ⟨90, _⟩ => ⟨S128x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S50000x256, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S50000x1, .f32⟩
  | .hbm, ⟨106, _⟩ => ⟨S1x1, .f32⟩
  | .hbm, ⟨107, _⟩ => ⟨S50000x1, .f32⟩
  | .hbm, ⟨108, _⟩ => ⟨S50000x1, .f32⟩
  | .hbm, ⟨109, _⟩ => ⟨S50000x1, .f32⟩
  | .hbm, ⟨110, _⟩ => ⟨S50000x1, .f32⟩
  | .hbm, ⟨111, _⟩ => ⟨S_, .f32⟩
  | .hbm, ⟨112, _⟩ => ⟨S50000x1, .f32⟩
  | .hbm, ⟨113, _⟩ => ⟨S50000x1, .f32⟩
  | .hbm, ⟨114, _⟩ => ⟨S_, .f32⟩
  | .hbm, ⟨115, _⟩ => ⟨S50000x1, .f32⟩
  | .hbm, ⟨116, _⟩ => ⟨S50000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call1_cst : Ref sig .tc := ⟨.hbm, 65, rfl⟩
abbrev main_call1_v0 : Ref sig .tc := ⟨.hbm, 66, rfl⟩
abbrev main_v49 : Ref sig .tc := ⟨.hbm, 67, rfl⟩
abbrev main_c_4 : Ref sig .tc := ⟨.hbm, 68, rfl⟩
abbrev main_v50 : Ref sig .tc := ⟨.hbm, 69, rfl⟩
abbrev main_v51 : Ref sig .tc := ⟨.hbm, 70, rfl⟩
abbrev main_c_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_6 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_call2_cst : Ref sig .tc := ⟨.hbm, 93, rfl⟩
abbrev main_call2_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_7 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_8 : Ref sig .tc := ⟨.hbm, 111, rfl⟩
abbrev main_v87 : Ref sig .tc := ⟨.hbm, 112, rfl⟩
abbrev main_v88 : Ref sig .tc := ⟨.hbm, 113, rfl⟩
abbrev main_cst_9 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S100000x128_S50000x256 : S100000x128.ShapeCasts S50000x256
  slices_S50000x256_S50000x128_0_0 : S50000x256.Slices ![0, 0] S50000x128
  slices_S50000x256_S50000x128_0_128 : S50000x256.Slices ![0, 128] S50000x128
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_1_0_0_n_n_wf : DotDims.WF S100000x128 S128x128 S100000x128 [1] [1] [0] [0] [] []
  dot_S50000x128_S1x128_S50000x1_1_1_0_0_n_n_wf : DotDims.WF S50000x128 S1x128 S50000x1 [1] [1] [0] [0] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf
def dot_S50000x128_S1x128_S50000x1_1_1_0_0_n_n : DotDims S50000x128 S1x128 S50000x1 where
  lhsContracting := [1]
  rhsContracting := [1]
  lhsNonContracting := [0]
  rhsNonContracting := [0]
  lhsBatch := []
  rhsBatch := []
  wf := dot_S50000x128_S1x128_S50000x1_1_1_0_0_n_n_wf

class Facts : Prop extends Facts₀ where

variable [Facts]
-- ==== Proof.RunNamed.lean ====
/-
  The idealized kernel's run with its four result arrays NAMED.  The program is four grid regions among stretches of
  host operations; after the last region every buffer the TensorCore holds is at the contents the fold through the
  program leaves (`Gen.W8`), so each result array is `W8` read at its reference, and each argument array is as launched.
-/
import proofs.«172212_j60224031425326_2_alg».proof.Proof.Gen.KernelIdeal.Frame

set_option maxRecDepth 16384

noncomputable section

namespace Cert.KernelIdeal.Values

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each of the four result arrays at
    the last boundary's contents and every argument array as launched. -/
theorem run_named : θ_run defs (onTc (τ := τ) (main (F := F))) ⟨m, fun _ => 0, ρ⟩ (fun r => ∀ c : Dev nD,
      r.2.mem ((c.tc : Thread nD τ).loc main_v70_0) = W8 m ρ c (Proc.devRef .tc main_v70_0)
      ∧ r.2.mem ((c.tc : Thread nD τ).loc main_v70_1) = W8 m ρ c (Proc.devRef .tc main_v70_1)
      ∧ r.2.mem ((c.tc : Thread nD τ).loc main_v70_2) = W8 m ρ c (Proc.devRef .tc main_v70_2)
      ∧ r.2.mem ((c.tc : Thread nD τ).loc main_v70_3) = W8 m ρ c (Proc.devRef .tc main_v70_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v70_0 (by decide)),
       h c _ (mem_uc main_v70_1 (by decide)),
       h c _ (mem_uc main_v70_2 (by decide)),
       h c _ (mem_uc main_v70_3 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Values

end
-- ==== Proof.RefLayer.lean ====
/-
  One layer of the reference as a function of whole arrays, and its entries.

  From the aggregated features `g` and the node features `x` (100000 × 128), two 128 × 128 weight matrices `wr`, `wo`
  contracted along their COLUMNS, and a bias vector `b`, the reference's layer is
      relu ((g·wrᵀ + b) + x·woᵀ):   row n, column h holds   max ((∑ₖ g[n,k]·wr[h,k] + b[h]) + ∑ₖ x[n,k]·wo[h,k], 0).
  The neighbourhood sum that produces `g` from the node features and the edge list (a gather of source rows scattered
  onto destination rows) is carried as ONE function `agg` of its operands and never opened: both programs apply it.
-/
import proofs.«172212_j60224031425326_2_alg».proof.Proof.Gen.ReferenceIdeal.Read
import Idealize.ShloMosaic.PureOps.Ideal.Laws
import Idealize.ShloMosaic.Lib.ValueIdx
import Idealize.ShloMosaic.Lib.Pipeline.Value

noncomputable section

namespace Cert.ReferenceIdeal.Layer

open Cert.ReferenceIdeal Cert.ReferenceIdeal.Gen Cert.ReferenceIdeal.Read
open Idealize.ShloMosaic Idealize.ShloMosaic.ValueIdx

/-- The neighbourhood sum: from the source and destination node of every edge (`s`, `d`) and the node features `x`,
    row n is the sum of x's rows s[e] over the edges e with d[e] = n (a negative source counted from the end). -/
def agg (s d : IVec S1600000 32) (x : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 x
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The layer on whole arrays, as the reference spells it. -/
def layer (g x : FVec Ideal S100000x128 .f32) (wr wo : FVec Ideal S128x128 .f32) (b : FVec Ideal S128 .f32) :
    FVec Ideal S100000x128 .f32 :=
  maximumf
    (addf (addf (Host.dotGeneral dot_S100000x128_S128x128_S100000x128_1_1_0_0_n_n none g wr)
        (broadcastInDim S100000x128 ![0, 1] bcast_S1x128_S100000x128_0_1 (broadcastInDim S1x128 ![1] bcast_S128_S1x128_1 b)))
      (Host.dotGeneral dot_S100000x128_S128x128_S100000x128_1_1_0_0_n_n none x wo))
    (broadcastInDim S100000x128 ![] bcast_S_S100000x128 (constant (F := Ideal) S_ .f32 0x00000000#32))

/-- A [100000,128] · [128,128]ᵀ product read at an entry: the sum over k of l[n,k]·r[h,k]. -/
theorem dot_apply (l : FVec Ideal S100000x128 .f32) (r : FVec Ideal S128x128 .f32) (i : S100000x128.Idx) :
    Host.dotGeneral dot_S100000x128_S128x128_S100000x128_1_1_0_0_n_n none l r i = ∑ k : Fin 128, l (lidx_main_v16 i k) * r (ridx_main_v16 i k) := by
  simp only [Host.dotGeneral]
  rw [Ideal.dotGeneral_apply, ← Equiv.sum_comp (ValueIdx.contrEquiv1 dot_S100000x128_S128x128_S100000x128_1_1_0_0_n_n 128 rfl rfl).symm]
  refine Finset.sum_congr rfl fun k _ => ?_
  have hk := ValueIdx.contrEquiv1_symm_val dot_S100000x128_S128x128_S100000x128_1_1_0_0_n_n 128 rfl rfl k
  have el : dot_S100000x128_S128x128_S100000x128_1_1_0_0_n_n.lhsIdx i ((ValueIdx.contrEquiv1 dot_S100000x128_S128x128_S100000x128_1_1_0_0_n_n 128 rfl rfl).symm k) = lidx_main_v16 i k := funext fun a => Fin.ext (by
    match a with
    | ⟨0, _⟩ => exact lhs_main_v16_0 _ _
    | ⟨1, _⟩ => exact (lhs_main_v16_1 _ _).trans hk)
  have er : dot_S100000x128_S128x128_S100000x128_1_1_0_0_n_n.rhsIdx i ((ValueIdx.contrEquiv1 dot_S100000x128_S128x128_S100000x128_1_1_0_0_n_n 128 rfl rfl).symm k) = ridx_main_v16 i k := funext fun a => Fin.ext (by
    match a with
    | ⟨0, _⟩ => exact rhs_main_v16_0 _ _
    | ⟨1, _⟩ => exact (rhs_main_v16_1 _ _).trans hk)
  rw [el, er]

/-- The bias broadcast over the rows, at an entry: the bias of the entry's column. -/
theorem bias_apply (b : FVec Ideal S128 .f32) (i : S100000x128.Idx) :
    broadcastInDim S100000x128 ![0, 1] bcast_S1x128_S100000x128_0_1 (broadcastInDim S1x128 ![1] bcast_S128_S1x128_1 b) i
      = b (idx_main_v19 (idx_main_v20 i)) := by
  refine (broadcastInDim_apply _ bcast_S1x128_S100000x128_0_1 _ i (idx_main_v20 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ bcast_S128_S1x128_1 b (idx_main_v20 i) (idx_main_v19 (idx_main_v20 i)) (fun a => match a with
    | ⟨0, _⟩ => by show (i 1).val = if (128 : Nat) = 1 then 0 else (i 1).val; rw [if_neg (by decide)])

/-- The layer at an entry. -/
theorem layer_apply (g x : FVec Ideal S100000x128 .f32) (wr wo : FVec Ideal S128x128 .f32) (b : FVec Ideal S128 .f32)
    (i : S100000x128.Idx) :
    layer g x wr wo b i
      = max (((∑ k : Fin 128, g (lidx_main_v16 i k) * wr (ridx_main_v16 i k)) + b (idx_main_v19 (idx_main_v20 i)))
          + ∑ k : Fin 128, x (lidx_main_v16 i k) * wo (ridx_main_v16 i k)) 0 := by
  unfold layer
  rw [maximumf_apply, addf_apply, addf_apply, dot_apply, dot_apply, bias_apply]
  refine congrArg (max _) ?_
  refine (broadcastInDim_apply _ bcast_S_S100000x128 _ i ix0 (fun a => a.elim0)).trans ?_
  exact Ideal.ofBits_zero_f32

/-! The reference's three layers and their neighbourhood sums are these functions of the stages before them. -/

theorem agg1_eq (x0 : FVec Ideal S100000x128 .f32) (x1 : IVec S2x1600000 32) :
    val_main_v13 (F := Ideal) x0 x1 = agg (val_main_v1 (F := Ideal) x1) (val_main_v3 (F := Ideal) x1) x0 := rfl

theorem layer1_eq (x0 : FVec Ideal S100000x128 .f32) (x1 : IVec S2x1600000 32) (x3 x5 : FVec Ideal S3x128x128 .f32) (x4 : FVec Ideal S3x128 .f32) :
    val_main_v26 (F := Ideal) x0 x1 x3 x4 x5
      = layer (val_main_v13 (F := Ideal) x0 x1) x0 (val_main_v15 (F := Ideal) x3) (val_main_v23 (F := Ideal) x5) (val_main_v18 (F := Ideal) x4) := rfl

theorem agg2_eq (x0 : FVec Ideal S100000x128 .f32) (x1 : IVec S2x1600000 32) (x3 x5 : FVec Ideal S3x128x128 .f32) (x4 : FVec Ideal S3x128 .f32) :
    val_main_v36 (F := Ideal) x0 x1 x3 x4 x5
      = agg (val_main_v1 (F := Ideal) x1) (val_main_v3 (F := Ideal) x1) (val_main_v26 (F := Ideal) x0 x1 x3 x4 x5) := rfl

theorem layer2_eq (x0 : FVec Ideal S100000x128 .f32) (x1 : IVec S2x1600000 32) (x3 x5 : FVec Ideal S3x128x128 .f32) (x4 : FVec Ideal S3x128 .f32) :
    val_main_v49 (F := Ideal) x0 x1 x3 x4 x5
      = layer (val_main_v36 (F := Ideal) x0 x1 x3 x4 x5) (val_main_v26 (F := Ideal) x0 x1 x3 x4 x5)
          (val_main_v38 (F := Ideal) x3) (val_main_v46 (F := Ideal) x5) (val_main_v41 (F := Ideal) x4) := rfl

theorem agg3_eq (x0 : FVec Ideal S100000x128 .f32) (x1 : IVec S2x1600000 32) (x3 x5 : FVec Ideal S3x128x128 .f32) (x4 : FVec Ideal S3x128 .f32) :
    val_main_v59 (F := Ideal) x0 x1 x3 x4 x5
      = agg (val_main_v1 (F := Ideal) x1) (val_main_v3 (F := Ideal) x1) (val_main_v49 (F := Ideal) x0 x1 x3 x4 x5) := rfl

theorem layer3_eq (x0 : FVec Ideal S100000x128 .f32) (x1 : IVec S2x1600000 32) (x3 x5 : FVec Ideal S3x128x128 .f32) (x4 : FVec Ideal S3x128 .f32) :
    val_main_v72 (F := Ideal) x0 x1 x3 x4 x5
      = layer (val_main_v59 (F := Ideal) x0 x1 x3 x4 x5) (val_main_v49 (F := Ideal) x0 x1 x3 x4 x5)
          (val_main_v61 (F := Ideal) x3) (val_main_v69 (F := Ideal) x5) (val_main_v64 (F := Ideal) x4) := rfl

end Cert.ReferenceIdeal.Layer

end
-- ==== Proof.Stages.lean ====
/-
  What the region entries hold.  Between the regions the program runs host operations; here each array a region reads
  is written as a function of the argument arrays (and, for the second and third layers, of the array the region before
  left): the edge list's source and destination rows, the neighbourhood sum of the current node features (whose change
  of float format is the identity over the extended reals), the transposed slices of the two weight tensors, the bias
  row, and before the last region the features re-laid in pairs, the transposed weight column and the 1 × 1 bias.
-/
import proofs.«172212_j60224031425326_2_alg».proof.Proof.Gen.KernelIdeal.Frame
import proofs.«172212_j60224031425326_2_alg».proof.Proof.RefLayer
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v13 val_main_v15 val_main_v18 val_main_v23 val_main_v38 val_main_v41 val_main_v46 val_main_v61 val_main_v64 val_main_v69)
open Cert.ReferenceIdeal.Layer (agg)

variable (m : (ℓ : Loc nD τ sig) → Buf (Elt Ideal) ℓ) (ρ : Dev nD → PrngReg)

/-- The argument arrays as launched. -/
abbrev a0 (c : Dev nD) := m ((c : Thread nD τ).loc main_arg0)
abbrev a1 (c : Dev nD) := m ((c : Thread nD τ).loc main_arg1)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)

/-! ## Over the extended reals a change of float format is the identity, and both programs' neighbourhood sums are one function -/

theorem truncf_id (v : FVec Ideal S100000x128 .f32) : truncf .bf16 v bitsLt_bf16_f32 = v := rfl

theorem scatter_dims : scatter_S100000x128_S1600000x1_S1600000x128_1_0_0_1
    = Cert.ReferenceIdeal.scatter_S100000x128_S1600000x1_S1600000x128_1_0_0_1 := rfl

theorem gather_dims : gather_S100000x128_S1600000x1_S1600000x128_1_0_n_n_0_1_1128
    = Cert.ReferenceIdeal.gather_S100000x128_S1600000x1_S1600000x128_1_0_n_n_0_1_1128 := rfl

/-- The host operations between two regions — a gather of the source rows (a negative source counted from the end)
    scattered onto the destination rows of a zero array — are the reference's neighbourhood sum. -/
theorem agg_eq (s d : IVec S1600000 32) (x : FVec Ideal S100000x128 .f32) :
    Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
      = agg s d x := by
  unfold Cert.ReferenceIdeal.Layer.agg
  rw [scatter_dims, gather_dims]

/-! ## Buffers no region writes keep what the first stretch of host operations left -/

theorem src_W1 (c : Dev nD) : W1 m ρ c (Proc.devRef .tc main_v1) = val_main_v1 (F := Ideal) (a1 m c) := by
  show StableHlo.after hostOps0 (W0 m ρ c) (Proc.devRef .tc main_v1) = _
  after_results
  first | done | rfl
theorem dst_W1 (c : Dev nD) : W1 m ρ c (Proc.devRef .tc main_v3) = val_main_v3 (F := Ideal) (a1 m c) := by
  show StableHlo.after hostOps0 (W0 m ρ c) (Proc.devRef .tc main_v3) = _
  after_results
  first | done | rfl
theorem src_W2 (c : Dev nD) : W2 m ρ c (Proc.devRef .tc main_v1) = val_main_v1 (F := Ideal) (a1 m c) :=
  (W2_of_ne m ρ c main_v1 (by decide)).trans (src_W1 m ρ c)
theorem dst_W2 (c : Dev nD) : W2 m ρ c (Proc.devRef .tc main_v3) = val_main_v3 (F := Ideal) (a1 m c) :=
  (W2_of_ne m ρ c main_v3 (by decide)).trans (dst_W1 m ρ c)
theorem src_W4 (c : Dev nD) : W4 m ρ c (Proc.devRef .tc main_v1) = val_main_v1 (F := Ideal) (a1 m c) := by
  rw [W4_of_ne m ρ c main_v1 (by decide)]
  show StableHlo.after hostOps1 (W2 m ρ c) (Proc.devRef .tc main_v1) = _
  after_results
  exact src_W2 m ρ c
theorem dst_W4 (c : Dev nD) : W4 m ρ c (Proc.devRef .tc main_v3) = val_main_v3 (F := Ideal) (a1 m c) := by
  rw [W4_of_ne m ρ c main_v3 (by decide)]
  show StableHlo.after hostOps1 (W2 m ρ c) (Proc.devRef .tc main_v3) = _
  after_results
  exact dst_W2 m ρ c
theorem arg3_W2 (c : Dev nD) : W2 m ρ c (Proc.devRef .tc main_arg3) = a3 m c := by
  rw [W2_of_ne m ρ c main_arg3 (by decide)]
  show StableHlo.after hostOps0 (W0 m ρ c) (Proc.devRef .tc main_arg3) = _
  after_results
  first | done | rfl
theorem arg3_W4 (c : Dev nD) : W4 m ρ c (Proc.devRef .tc main_arg3) = a3 m c := by
  rw [W4_of_ne m ρ c main_arg3 (by decide)]
  show StableHlo.after hostOps1 (W2 m ρ c) (Proc.devRef .tc main_arg3) = _
  after_results
  rw [W2_of_ne m ρ c main_arg3 (by decide)]
  show StableHlo.after hostOps0 (W0 m ρ c) (Proc.devRef .tc main_arg3) = _
  after_results
  first | done | rfl
theorem arg4_W2 (c : Dev nD) : W2 m ρ c (Proc.devRef .tc main_arg4) = a4 m c := by
  rw [W2_of_ne m ρ c main_arg4 (by decide)]
  show StableHlo.after hostOps0 (W0 m ρ c) (Proc.devRef .tc main_arg4) = _
  after_results
  first | done | rfl
theorem arg4_W4 (c : Dev nD) : W4 m ρ c (Proc.devRef .tc main_arg4) = a4 m c := by
  rw [W4_of_ne m ρ c main_arg4 (by decide)]
  show StableHlo.after hostOps1 (W2 m ρ c) (Proc.devRef .tc main_arg4) = _
  after_results
  rw [W2_of_ne m ρ c main_arg4 (by decide)]
  show StableHlo.after hostOps0 (W0 m ρ c) (Proc.devRef .tc main_arg4) = _
  after_results
  first | done | rfl
theorem arg5_W2 (c : Dev nD) : W2 m ρ c (Proc.devRef .tc main_arg5) = a5 m c := by
  rw [W2_of_ne m ρ c main_arg5 (by decide)]
  show StableHlo.after hostOps0 (W0 m ρ c) (Proc.devRef .tc main_arg5) = _
  after_results
  first | done | rfl
theorem arg5_W4 (c : Dev nD) : W4 m ρ c (Proc.devRef .tc main_arg5) = a5 m c := by
  rw [W4_of_ne m ρ c main_arg5 (by decide)]
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results
  first | done | rfl
theorem arg6_W6 (c : Dev nD) : W6 m ρ c (Proc.devRef .tc main_arg6) = a6 m c := by
  rw [W6_of_ne m ρ c main_arg6 (by decide)]
  show StableHlo.after hostOps2 (W4 m ρ c) (Proc.devRef .tc main_arg6) = _
  after_results
  rw [W4_of_ne m ρ c main_arg6 (by decide)]
  show StableHlo.after hostOps1 (W2 m ρ c) (Proc.devRef .tc main_arg6) = _
  after_results
  rw [W2_of_ne m ρ c main_arg6 (by decide)]
  show StableHlo.after hostOps0 (W0 m ρ c) (Proc.devRef .tc main_arg6) = _
  after_results
  first | done | rfl
theorem arg7_W6 (c : Dev nD) : W6 m ρ c (Proc.devRef .tc main_arg7) = a7 m c := by
  rw [W6_of_ne m ρ c main_arg7 (by decide)]
  show StableHlo.after hostOps2 (W4 m ρ c) (Proc.devRef .tc main_arg7) = _
  after_results
  rw [W4_of_ne m ρ c main_arg7 (by decide)]
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results
  first | done | rfl

/-! ## Region 0's entry -/

set_option maxHeartbeats 4000000 in
theorem r0_a (c : Dev nD) : W1 m ρ c (Proc.devRef .tc main_v14) = val_main_v13 (F := Ideal) (a0 m c) (a1 m c) := by
  show StableHlo.after hostOps0 (W0 m ρ c) (Proc.devRef .tc main_v14) = _
  after_results_simp
  rw [truncf_id, Cert.ReferenceIdeal.Layer.agg1_eq]
  refine (agg_eq _ _ _).trans ?_
  exact congr (congr (congrArg agg rfl) rfl) rfl
theorem r0_x (c : Dev nD) : W1 m ρ c (Proc.devRef .tc main_arg0) = a0 m c := by
  show StableHlo.after hostOps0 (W0 m ρ c) (Proc.devRef .tc main_arg0) = _
  after_results
  first | done | rfl
theorem r0_u (c : Dev nD) : W1 m ρ c (Proc.devRef .tc main_v17)
    = transpose S128x128 [1, 0] (val_main_v15 (F := Ideal) (a3 m c)) transposes_S128x128_S128x128_1_0 := by
  show StableHlo.after hostOps0 (W0 m ρ c) (Proc.devRef .tc main_v17) = _
  after_results
  first | done | rfl
theorem r0_v (c : Dev nD) : W1 m ρ c (Proc.devRef .tc main_v20)
    = transpose S128x128 [1, 0] (val_main_v23 (F := Ideal) (a5 m c)) transposes_S128x128_S128x128_1_0 := by
  show StableHlo.after hostOps0 (W0 m ρ c) (Proc.devRef .tc main_v20) = _
  after_results
  first | done | rfl
theorem r0_b (c : Dev nD) : W1 m ρ c (Proc.devRef .tc main_v23)
    = shapeCast S1x128 (val_main_v18 (F := Ideal) (a4 m c)) shapeCasts_S128_S1x128 := by
  show StableHlo.after hostOps0 (W0 m ρ c) (Proc.devRef .tc main_v23) = _
  after_results
  first | done | rfl

/-! ## Region 1's entry, from what region 0 left in its result array -/

set_option maxHeartbeats 4000000 in
theorem r1_a (c : Dev nD) : W3 m ρ c (Proc.devRef .tc main_v35)
    = agg (val_main_v1 (F := Ideal) (a1 m c)) (val_main_v3 (F := Ideal) (a1 m c)) (W2 m ρ c (Proc.devRef .tc main_v24)) := by
  show StableHlo.after hostOps1 (W2 m ρ c) (Proc.devRef .tc main_v35) = _
  after_results_simp
  rw [truncf_id, src_W2, dst_W2]
  exact agg_eq _ _ _
theorem r1_x (c : Dev nD) : W3 m ρ c (Proc.devRef .tc main_v24) = W2 m ρ c (Proc.devRef .tc main_v24) := by
  show StableHlo.after hostOps1 (W2 m ρ c) (Proc.devRef .tc main_v24) = _
  after_results
  first | done | rfl
theorem r1_u (c : Dev nD) : W3 m ρ c (Proc.devRef .tc main_v38)
    = transpose S128x128 [1, 0] (val_main_v38 (F := Ideal) (a3 m c)) transposes_S128x128_S128x128_1_0 := by
  show StableHlo.after hostOps1 (W2 m ρ c) (Proc.devRef .tc main_v38) = _
  after_results
  rw [arg3_W2]
  rfl
theorem r1_v (c : Dev nD) : W3 m ρ c (Proc.devRef .tc main_v41)
    = transpose S128x128 [1, 0] (val_main_v46 (F := Ideal) (a5 m c)) transposes_S128x128_S128x128_1_0 := by
  show StableHlo.after hostOps1 (W2 m ρ c) (Proc.devRef .tc main_v41) = _
  after_results
  rw [arg5_W2]
  rfl
theorem r1_b (c : Dev nD) : W3 m ρ c (Proc.devRef .tc main_v44)
    = shapeCast S1x128 (val_main_v41 (F := Ideal) (a4 m c)) shapeCasts_S128_S1x128 := by
  show StableHlo.after hostOps1 (W2 m ρ c) (Proc.devRef .tc main_v44) = _
  after_results
  rw [arg4_W2]
  rfl

/-! ## Region 2's entry, from what region 1 left in its result array -/

set_option maxHeartbeats 4000000 in
theorem r2_a (c : Dev nD) : W5 m ρ c (Proc.devRef .tc main_v56)
    = agg (val_main_v1 (F := Ideal) (a1 m c)) (val_main_v3 (F := Ideal) (a1 m c)) (W4 m ρ c (Proc.devRef .tc main_v45)) := by
  show StableHlo.after hostOps2 (W4 m ρ c) (Proc.devRef .tc main_v56) = _
  after_results_simp
  rw [truncf_id, src_W4, dst_W4]
  exact agg_eq _ _ _
theorem r2_x (c : Dev nD) : W5 m ρ c (Proc.devRef .tc main_v45) = W4 m ρ c (Proc.devRef .tc main_v45) := by
  show StableHlo.after hostOps2 (W4 m ρ c) (Proc.devRef .tc main_v45) = _
  after_results
  first | done | rfl
theorem r2_u (c : Dev nD) : W5 m ρ c (Proc.devRef .tc main_v59)
    = transpose S128x128 [1, 0] (val_main_v61 (F := Ideal) (a3 m c)) transposes_S128x128_S128x128_1_0 := by
  show StableHlo.after hostOps2 (W4 m ρ c) (Proc.devRef .tc main_v59) = _
  after_results
  rw [arg3_W4]
  rfl
theorem r2_v (c : Dev nD) : W5 m ρ c (Proc.devRef .tc main_v62)
    = transpose S128x128 [1, 0] (val_main_v69 (F := Ideal) (a5 m c)) transposes_S128x128_S128x128_1_0 := by
  show StableHlo.after hostOps2 (W4 m ρ c) (Proc.devRef .tc main_v62) = _
  after_results
  rw [arg5_W4]
  rfl
theorem r2_b (c : Dev nD) : W5 m ρ c (Proc.devRef .tc main_v65)
    = shapeCast S1x128 (val_main_v64 (F := Ideal) (a4 m c)) shapeCasts_S128_S1x128 := by
  show StableHlo.after hostOps2 (W4 m ρ c) (Proc.devRef .tc main_v65) = _
  after_results
  rw [arg4_W4]
  rfl

/-! ## Region 3's entry, from what region 2 left in its result array -/

theorem r3_p (c : Dev nD) : W7 m ρ c (Proc.devRef .tc main_v67)
    = shapeCast S50000x256 (W6 m ρ c (Proc.devRef .tc main_v66)) shapeCasts_S100000x128_S50000x256 := by
  show StableHlo.after hostOps3 (W6 m ρ c) (Proc.devRef .tc main_v67) = _
  after_results
  first | done | rfl
theorem r3_w (c : Dev nD) : W7 m ρ c (Proc.devRef .tc main_v68)
    = transpose S128x1 [1, 0] (a6 m c) transposes_S1x128_S128x1_1_0 := by
  show StableHlo.after hostOps3 (W6 m ρ c) (Proc.devRef .tc main_v68) = _
  after_results
  rw [arg6_W6]
  first | done | rfl
theorem r3_b (c : Dev nD) : W7 m ρ c (Proc.devRef .tc main_v69)
    = shapeCast S1x1 (a7 m c) shapeCasts_S1_S1x1 := by
  show StableHlo.after hostOps3 (W6 m ρ c) (Proc.devRef .tc main_v69) = _
  after_results
  rw [arg7_W6]
  first | done | rfl

end Cert.KernelIdeal.Stages

end
-- ==== Proof.Body.lean ====
/-
  The bodies' arithmetic read at an index, over the extended reals.

  A combine body takes a block of 4000 rows of the aggregated features `a` and of the node features `x`, two
  128 × 128 weight matrices `u`, `v` (already transposed: contracted along their ROWS) and a bias row `b`, and stores
      max ((∑ₖ a[p,k]·u[k,q] + ∑ₖ x[p,k]·v[k,q]) + b[0,q], 0)
  at row p, column q: a change of float format is the identity here and a matrix product into a zero accumulator is the
  plain sum.  The final body takes a block of 2000 rows of paired features (two 128-column halves `l`, `r` side by
  side), a weight column `w` and a 1 × 1 bias `b`; it stores the two halves, the entrywise
      √((l − r)·(l − r) + ε)
  and the logistic function of the product of that with `w` plus `b`.
-/
import proofs.«172212_j60224031425326_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen
open Idealize.ShloMosaic Idealize.ShloMosaic.ValueIdx

/-- The left operand's row is the result's row. -/
theorem lhs_row (i : S4000x128.Idx) (k : dot_S4000x128_S128x128_S4000x128_1_0_0_1_n_n.contr.Idx) : (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contracted index. -/
theorem lhs_col (i : S4000x128.Idx) (k : dot_S4000x128_S128x128_S4000x128_1_0_0_1_n_n.contr.Idx) : (dot_S4000x128_S128x128_S4000x128_1_0_0_1_n_n.lhsIdx i k 1).val = (k ⟨0, by decide⟩).val :=
  dot_S4000x128_S128x128_S4000x128_1_0_0_1_n_n.lhsIdx_val_of_single rfl i k
/-- The right operand's row is the contracted index. -/
theorem rhs_row (i : S4000x128.Idx) (k : dot_S4000x128_S128x128_S4000x128_1_0_0_1_n_n.contr.Idx) : (dot_S4000x128_S128x128_S4000x128_1_0_0_1_n_n.rhsIdx i k 0).val = (k ⟨0, by decide⟩).val :=
  dot_S4000x128_S128x128_S4000x128_1_0_0_1_n_n.rhsIdx_val_of_single rfl i k
/-- The right operand's column is the result's column. -/
theorem rhs_col (i : S4000x128.Idx) (k : dot_S4000x128_S128x128_S4000x128_1_0_0_1_n_n.contr.Idx) : (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] × [128,128] matrix product into the zero accumulator, at (p, q): the sum over k of l[p,k]·r[k,q]. -/
theorem matmul_rows_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The first combine body's stored value at row p, column q. -/
theorem combine0_apply (a : FVec Ideal S4000x128 .bf16) (x : FVec Ideal S4000x128 .f32) (u v : FVec Ideal S128x128 .f32)
    (b : FVec Ideal S1x128 .f32) (p : Fin 4000) (q : Fin 128) :
    k0_pay1 (F := Ideal) a x u v b (ix2 p q)
      = max (((∑ k : Fin 128, a (ix2 p k) * u (ix2 k q)) + ∑ k : Fin 128, x (ix2 p k) * v (ix2 k q)) + b (ix2 (0 : Fin 1) q)) 0 := by
  unfold k0_pay1
  simp only [shapeCast_self]
  rw [maximumf_apply, addf_apply, addf_apply, matmul_rows_apply, matmul_rows_apply, broadcastTo_1b_ab_apply, broadcast_apply]
  simp only [truncf_apply]
  exact congrArg (max _) Ideal.ofBits_zero_f32

/-- The second combine body is the first one (one more cast between equal shapes). -/
theorem combine1_eq (a : FVec Ideal S4000x128 .bf16) (x : FVec Ideal S4000x128 .f32) (u v : FVec Ideal S128x128 .f32)
    (b : FVec Ideal S1x128 .f32) : k1_pay1 (F := Ideal) a x u v b = k0_pay1 (F := Ideal) a x u v b := by
  unfold k1_pay1 k0_pay1
  simp only [shapeCast_self]

/-- The third combine body is the second one. -/
theorem combine2_eq (a : FVec Ideal S4000x128 .bf16) (x : FVec Ideal S4000x128 .f32) (u v : FVec Ideal S128x128 .f32)
    (b : FVec Ideal S1x128 .f32) : k2_pay1 (F := Ideal) a x u v b = k1_pay1 (F := Ideal) a x u v b := rfl

/-! ## The final body -/

/-- The stored left half is the loaded one. -/
theorem left_eq (l : FVec Ideal S2000x128 .f32) : k3_pay1 (F := Ideal) l = l := by
  unfold k3_pay1
  exact shapeCast_self _ _

/-- The stored right half is the loaded one. -/
theorem right_eq (r : FVec Ideal S2000x128 .f32) : k3_pay2 (F := Ideal) r = r := by
  unfold k3_pay2
  exact shapeCast_self _ _

/-- The stored distance at an entry. -/
theorem dist_apply (l r : FVec Ideal S2000x128 .f32) (y : S2000x128.Idx) :
    k3_pay3 (F := Ideal) l r y = Ideal.sqrt ((l y - r y) * (l y - r y) + Ideal.ofBits .f32 0x3A83126F#32) := by
  unfold k3_pay3
  rw [left_eq, right_eq]
  rfl

theorem lhs_row2 (i : S2000x1.Idx) (k : dot_S2000x128_S128x1_S2000x1_1_0_0_1_n_n.contr.Idx) : (dot_S2000x128_S128x1_S2000x1_1_0_0_1_n_n.lhsIdx i k 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem lhs_col2 (i : S2000x1.Idx) (k : dot_S2000x128_S128x1_S2000x1_1_0_0_1_n_n.contr.Idx) : (dot_S2000x128_S128x1_S2000x1_1_0_0_1_n_n.lhsIdx i k 1).val = (k ⟨0, by decide⟩).val :=
  dot_S2000x128_S128x1_S2000x1_1_0_0_1_n_n.lhsIdx_val_of_single rfl i k
theorem rhs_row2 (i : S2000x1.Idx) (k : dot_S2000x128_S128x1_S2000x1_1_0_0_1_n_n.contr.Idx) : (dot_S2000x128_S128x1_S2000x1_1_0_0_1_n_n.rhsIdx i k 0).val = (k ⟨0, by decide⟩).val :=
  dot_S2000x128_S128x1_S2000x1_1_0_0_1_n_n.rhsIdx_val_of_single rfl i k
theorem rhs_col2 (i : S2000x1.Idx) (k : dot_S2000x128_S128x1_S2000x1_1_0_0_1_n_n.contr.Idx) : (dot_S2000x128_S128x1_S2000x1_1_0_0_1_n_n.rhsIdx i k 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- A [2000,128] × [128,1] matrix product into the zero accumulator, at (p, u): the sum over k of l[p,k]·r[k,u]. -/
theorem matmul_col_apply {φ₁ φ₂ : FTy} (l : FVec Ideal S2000x128 φ₁) (r : FVec Ideal S128x1 φ₂) (p : Fin 2000) (u : Fin 1) :
    matmul dot_S2000x128_S128x1_S2000x1_1_0_0_1_n_n none l r (constant (F := Ideal) S2000x1 .f32 0x00000000#32) (ix2 p u)
      = ∑ k : Fin 128, l (ix2 p k) * r (ix2 k u) := by
  simp only [matmul]
  rw [Ideal.matmul_constant_zero_apply, ← Equiv.sum_comp (ValueIdx.contrEquiv1 dot_S2000x128_S128x1_S2000x1_1_0_0_1_n_n 128 rfl rfl).symm]
  refine Finset.sum_congr rfl fun k _ => ?_
  have hk := ValueIdx.contrEquiv1_symm_val dot_S2000x128_S128x1_S2000x1_1_0_0_1_n_n 128 rfl rfl k
  have el : dot_S2000x128_S128x1_S2000x1_1_0_0_1_n_n.lhsIdx (ix2 p u) ((ValueIdx.contrEquiv1 dot_S2000x128_S128x1_S2000x1_1_0_0_1_n_n 128 rfl rfl).symm k) = ix2 p k := funext fun a => Fin.ext (by
    match a with
    | ⟨0, _⟩ => exact lhs_row2 _ _
    | ⟨1, _⟩ => exact (lhs_col2 _ _).trans hk)
  have er : dot_S2000x128_S128x1_S2000x1_1_0_0_1_n_n.rhsIdx (ix2 p u) ((ValueIdx.contrEquiv1 dot_S2000x128_S128x1_S2000x1_1_0_0_1_n_n 128 rfl rfl).symm k) = ix2 k u := funext fun a => Fin.ext (by
    match a with
    | ⟨0, _⟩ => exact (rhs_row2 _ _).trans hk
    | ⟨1, _⟩ => exact rhs_col2 _ _)
  rw [el, er]

/-- The stored logistic value at row p. -/
theorem sig_apply (l r : FVec Ideal S2000x128 .f32) (w : FVec Ideal S128x1 .f32) (b : FVec Ideal S1x1 .f32) (p : Fin 2000) (u : Fin 1) :
    k3_pay4 (F := Ideal) l r w b (ix2 p u)
      = Ideal.logistic ((∑ k : Fin 128, k3_pay3 (F := Ideal) l r (ix2 p k) * w (ix2 k u)) + b (ix2 (0 : Fin 1) u)) := by
  unfold k3_pay4
  simp only [shapeCast_self]
  show Ideal.logistic (_ + _) = _
  rw [matmul_col_apply, broadcastTo_1b_ab_apply]
  simp only [truncf_apply]

end Cert.KernelIdeal.Body

end
-- ==== Proof.Combine.lean ====
/-
  One graph-convolution layer's dense step as a function of whole arrays, in the kernel's arrangement: from the
  aggregated features `a` and the node features `x` (100000 nodes × 128), two 128 × 128 weight matrices `u`, `v`
  contracted along their rows, and a bias row `b`, row n, column h of the result is
      max ((∑ₖ a[n,k]·u[k,h] + ∑ₖ x[n,k]·v[k,h]) + b[0,h], 0).
-/
import proofs.«172212_j60224031425326_2_alg».proof.KernelIdeal
import Idealize.ShloMosaic.PureOps.Ideal
import Idealize.ShloMosaic.Lib.ValueIdx

noncomputable section

namespace Cert.KernelIdeal.Combine

open Cert.KernelIdeal
open Idealize.ShloMosaic Idealize.ShloMosaic.ValueIdx

/-- Row `i`'s entry in column k. -/
abbrev rowIdx (i : S100000x128.Idx) (k : Fin 128) : S100000x128.Idx := fun a => match a with
  | ⟨0, _⟩ => ⟨(i 0).val, (i 0).isLt⟩
  | ⟨1, _⟩ => ⟨k.val, k.isLt⟩

/-- Row k of a weight matrix, in `i`'s column. -/
abbrev wIdx (i : S100000x128.Idx) (k : Fin 128) : S128x128.Idx := fun a => match a with
  | ⟨0, _⟩ => ⟨k.val, k.isLt⟩
  | ⟨1, _⟩ => ⟨(i 1).val, (i 1).isLt⟩

/-- The bias row's entry in `i`'s column. -/
abbrev bIdx (i : S100000x128.Idx) : S1x128.Idx := fun a => match a with
  | ⟨0, _⟩ => ⟨0, Nat.one_pos⟩
  | ⟨1, _⟩ => ⟨(i 1).val, (i 1).isLt⟩

/-- The layer's dense step, entry by entry. -/
def combineArr (a : FVec Ideal S100000x128 .bf16) (x : FVec Ideal S100000x128 .f32) (u v : FVec Ideal S128x128 .f32)
    (b : FVec Ideal S1x128 .f32) : FVec Ideal S100000x128 .f32 := fun i =>
  max (((∑ k : Fin 128, a (rowIdx i k) * u (wIdx i k)) + ∑ k : Fin 128, x (rowIdx i k) * v (wIdx i k)) + b (bIdx i)) 0

end Cert.KernelIdeal.Combine

end
-- ==== Proof.Region0.lean ====
/-
  Combine region 0: the array it leaves, as one function of the arrays it finds.

  The grid has 25 points; point t takes rows 4000·t … 4000·t + 3999 of the aggregated features and of the node features,
  the two weight matrices and the bias row whole, and writes rows 4000·t … 4000·t + 3999 of the result.  So the result
  array, which the 25 row blocks tile, ends at `combineArr` of the five arrays: row n, column h holds
      max ((∑ₖ a[n,k]·u[k,h] + ∑ₖ x[n,k]·v[k,h]) + b[0,h], 0).
-/
import proofs.«172212_j60224031425326_2_alg».proof.Proof.Gen.KernelIdeal.Frame
import proofs.«172212_j60224031425326_2_alg».proof.Proof.Body
import proofs.«172212_j60224031425326_2_alg».proof.Proof.Combine
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the output move one block of rows per point, the
    weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point t's block of the aggregated features: rows 4000·t … of that array. -/
theorem blk_a (c : Dev nD) (t : Fin cfg0.N) (y : S4000x128.Idx) (i : S100000x128.Idx)
    (h0 : (i 0).val = t.val * 4000 + (y 0).val) (h1 : (i 1).val = (y 1).val) :
    iblk0 V c 0 t y = V c (Pipeline.arrRef spec0 0) i := by
  obtain ⟨e0, e1, -⟩ := idx_facts t
  unfold iblk0
  show V c (Pipeline.arrRef spec0 0) (((cfg0.win 0).blk t).view.emb y) = _
  refine congrArg _ (funext fun a => Fin.ext ?_)
  match a with
  | ⟨0, _⟩ => show win0_0.index t (0 : Fin 2) * 4000 + 1 * (y 0).val = (i 0).val; omega
  | ⟨1, _⟩ => show win0_0.index t (1 : Fin 2) * 128 + 1 * (y 1).val = (i 1).val; omega

/-- Point t's block of the node features: rows 4000·t … of that array. -/
theorem blk_x (c : Dev nD) (t : Fin cfg0.N) (y : S4000x128.Idx) (i : S100000x128.Idx)
    (h0 : (i 0).val = t.val * 4000 + (y 0).val) (h1 : (i 1).val = (y 1).val) :
    iblk0 V c 1 t y = V c (Pipeline.arrRef spec0 1) i := by
  obtain ⟨-, -, e0, e1, -⟩ := idx_facts t
  unfold iblk0
  show V c (Pipeline.arrRef spec0 1) (((cfg0.win 1).blk t).view.emb y) = _
  refine congrArg _ (funext fun a => Fin.ext ?_)
  match a with
  | ⟨0, _⟩ => show win0_1.index t (0 : Fin 2) * 4000 + 1 * (y 0).val = (i 0).val; omega
  | ⟨1, _⟩ => show win0_1.index t (1 : Fin 2) * 128 + 1 * (y 1).val = (i 1).val; omega

/-- Every point's block of the first weight matrix is the whole matrix. -/
theorem blk_u (c : Dev nD) (t : Fin cfg0.N) (y : S128x128.Idx) (i : S128x128.Idx) (h0 : (i 0).val = (y 0).val) (h1 : (i 1).val = (y 1).val) :
    iblk0 V c 2 t y = V c (Pipeline.arrRef spec0 2) i := by
  obtain ⟨-, -, -, -, e0, e1, -⟩ := idx_facts t
  unfold iblk0
  show V c (Pipeline.arrRef spec0 2) (((cfg0.win 2).blk t).view.emb y) = _
  refine congrArg _ (funext fun a => Fin.ext ?_)
  match a with
  | ⟨0, _⟩ => show win0_2.index t (0 : Fin 2) * 128 + 1 * (y 0).val = (i 0).val; omega
  | ⟨1, _⟩ => show win0_2.index t (1 : Fin 2) * 128 + 1 * (y 1).val = (i 1).val; omega

/-- Every point's block of the second weight matrix is the whole matrix. -/
theorem blk_v (c : Dev nD) (t : Fin cfg0.N) (y : S128x128.Idx) (i : S128x128.Idx) (h0 : (i 0).val = (y 0).val) (h1 : (i 1).val = (y 1).val) :
    iblk0 V c 3 t y = V c (Pipeline.arrRef spec0 3) i := by
  obtain ⟨-, -, -, -, -, -, e0, e1, -⟩ := idx_facts t
  unfold iblk0
  show V c (Pipeline.arrRef spec0 3) (((cfg0.win 3).blk t).view.emb y) = _
  refine congrArg _ (funext fun a => Fin.ext ?_)
  match a with
  | ⟨0, _⟩ => show win0_3.index t (0 : Fin 2) * 128 + 1 * (y 0).val = (i 0).val; omega
  | ⟨1, _⟩ => show win0_3.index t (1 : Fin 2) * 128 + 1 * (y 1).val = (i 1).val; omega

/-- Every point's block of the bias row is the whole row. -/
theorem blk_b (c : Dev nD) (t : Fin cfg0.N) (y : S1x128.Idx) (i : S1x128.Idx) (h0 : (i 0).val = (y 0).val) (h1 : (i 1).val = (y 1).val) :
    iblk0 V c 4 t y = V c (Pipeline.arrRef spec0 4) i := by
  obtain ⟨-, -, -, -, -, -, -, -, e0, e1, -⟩ := idx_facts t
  unfold iblk0
  show V c (Pipeline.arrRef spec0 4) (((cfg0.win 4).blk t).view.emb y) = _
  refine congrArg _ (funext fun a => Fin.ext ?_)
  match a with
  | ⟨0, _⟩ => show win0_4.index t (0 : Fin 2) * 1 + 1 * (y 0).val = (i 0).val; omega
  | ⟨1, _⟩ => show win0_4.index t (1 : Fin 2) * 128 + 1 * (y 1).val = (i 1).val; omega

set_option maxHeartbeats 2000000 in
/-- What point t writes back is block t of `combineArr` of the five arrays the region finds. -/
theorem flushed_eq (c : Dev nD) (t : Fin cfg0.N) :
    (dat0 V c).flushed 5 t = ((cfg0.win 5).blk t).view.read (Elt Ideal)
      (Combine.combineArr (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  obtain ⟨-, -, -, -, -, -, -, -, -, -, e0, e1⟩ := idx_facts t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Combine.combineArr _ _ _ _ _ (((cfg0.win 5).blk t).view.emb (ix2 p q))

  refine (Body.combine0_apply _ _ _ _ _ p q).trans ?_
  have hr : ((((cfg0.win 5).blk t).view.emb (ix2 p q)) 0).val = t.val * 4000 + p.val := by
    show win0_5.index t (0 : Fin 2) * 4000 + 1 * p.val = _; omega
  have hc : ((((cfg0.win 5).blk t).view.emb (ix2 p q)) 1).val = q.val := by
    show win0_5.index t (1 : Fin 2) * 128 + 1 * q.val = _; omega
  unfold Combine.combineArr
  refine congrArg₂ max (congrArg₂ (· + ·) (congrArg₂ (· + ·) (Finset.sum_congr rfl fun k _ => ?_) (Finset.sum_congr rfl fun k _ => ?_)) ?_) rfl
  · rw [blk_a V c t (ix2 p k) (Combine.rowIdx (((cfg0.win 5).blk t).view.emb (ix2 p q)) k) hr rfl, blk_u V c t (ix2 k q) (Combine.wIdx (((cfg0.win 5).blk t).view.emb (ix2 p q)) k) rfl hc]
  · rw [blk_x V c t (ix2 p k) (Combine.rowIdx (((cfg0.win 5).blk t).view.emb (ix2 p q)) k) hr rfl, blk_v V c t (ix2 k q) (Combine.wIdx (((cfg0.win 5).blk t).view.emb (ix2 p q)) k) rfl hc]
  · rw [blk_b V c t (ix2 (0 : Fin 1) q) (Combine.bIdx (((cfg0.win 5).blk t).view.emb (ix2 p q))) rfl hc]

/-- An index of the result array is in point t's block iff its row is among rows 4000·t … 4000·t + 3999. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v24).slice (win0_5.rect t)).set ↔ _
  rw [View.set_slice_whole, Rect.mem_set_unit]
  exact Iff.rfl

/-- The 25 row blocks cover the result array: row n is in block n / 4000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_5 _, ?_⟩
  rw [mem_blk]
  obtain ⟨-, -, -, -, -, -, -, -, -, -, e0, e1⟩ := idx_facts ⟨(i 0).val / 4000, by rw [hN]; omega⟩
  intro a
  match a with
  | ⟨0, _⟩ =>
    show win0_5.index _ (0 : Fin 2) * 4000 ≤ (i 0).val ∧ (i 0).val < win0_5.index _ (0 : Fin 2) * 4000 + 4000
    rw [e0]; show (i 0).val / 4000 * 4000 ≤ (i 0).val ∧ (i 0).val < (i 0).val / 4000 * 4000 + 4000; omega
  | ⟨1, _⟩ =>
    show win0_5.index _ (1 : Fin 2) * 128 ≤ (i 1).val ∧ (i 1).val < win0_5.index _ (1 : Fin 2) * 128 + 128
    rw [e1]; omega

/-- The result array after the region. -/
theorem final (c : Dev nD) : (dat0 V c).arrAt 5 cfg0.N
    = Combine.combineArr (V c (Pipeline.arrRef spec0 0)) (V c (Pipeline.arrRef spec0 1)) (V c (Pipeline.arrRef spec0 2))
        (V c (Pipeline.arrRef spec0 3)) (V c (Pipeline.arrRef spec0 4)) :=
  (dat0 V c).arrAt_eq_of_cover 5 _ (fun t _ => flushed_eq V c t) (cover)

end Cert.KernelIdeal.Region0

end
-- ==== Proof.Region1.lean ====
/-
  Combine region 1: the array it leaves, as one function of the arrays it finds.

  The grid has 25 points; point t takes rows 4000·t … 4000·t + 3999 of the aggregated features and of the node features,
  the two weight matrices and the bias row whole, and writes rows 4000·t … 4000·t + 3999 of the result.  So the result
  array, which the 25 row blocks tile, ends at `combineArr` of the five arrays: row n, column h holds
      max ((∑ₖ a[n,k]·u[k,h] + ∑ₖ x[n,k]·v[k,h]) + b[0,h], 0).
-/
import proofs.«172212_j60224031425326_2_alg».proof.Proof.Gen.KernelIdeal.Frame
import proofs.«172212_j60224031425326_2_alg».proof.Proof.Body
import proofs.«172212_j60224031425326_2_alg».proof.Proof.Combine
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the output move one block of rows per point, the
    weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point t's block of the aggregated features: rows 4000·t … of that array. -/
theorem blk_a (c : Dev nD) (t : Fin cfg1.N) (y : S4000x128.Idx) (i : S100000x128.Idx)
    (h0 : (i 0).val = t.val * 4000 + (y 0).val) (h1 : (i 1).val = (y 1).val) :
    iblk1 V c 0 t y = V c (Pipeline.arrRef spec1 0) i := by
  obtain ⟨e0, e1, -⟩ := idx_facts t
  unfold iblk1
  show V c (Pipeline.arrRef spec1 0) (((cfg1.win 0).blk t).view.emb y) = _
  refine congrArg _ (funext fun a => Fin.ext ?_)
  match a with
  | ⟨0, _⟩ => show win1_0.index t (0 : Fin 2) * 4000 + 1 * (y 0).val = (i 0).val; omega
  | ⟨1, _⟩ => show win1_0.index t (1 : Fin 2) * 128 + 1 * (y 1).val = (i 1).val; omega

/-- Point t's block of the node features: rows 4000·t … of that array. -/
theorem blk_x (c : Dev nD) (t : Fin cfg1.N) (y : S4000x128.Idx) (i : S100000x128.Idx)
    (h0 : (i 0).val = t.val * 4000 + (y 0).val) (h1 : (i 1).val = (y 1).val) :
    iblk1 V c 1 t y = V c (Pipeline.arrRef spec1 1) i := by
  obtain ⟨-, -, e0, e1, -⟩ := idx_facts t
  unfold iblk1
  show V c (Pipeline.arrRef spec1 1) (((cfg1.win 1).blk t).view.emb y) = _
  refine congrArg _ (funext fun a => Fin.ext ?_)
  match a with
  | ⟨0, _⟩ => show win1_1.index t (0 : Fin 2) * 4000 + 1 * (y 0).val = (i 0).val; omega
  | ⟨1, _⟩ => show win1_1.index t (1 : Fin 2) * 128 + 1 * (y 1).val = (i 1).val; omega

/-- Every point's block of the first weight matrix is the whole matrix. -/
theorem blk_u (c : Dev nD) (t : Fin cfg1.N) (y : S128x128.Idx) (i : S128x128.Idx) (h0 : (i 0).val = (y 0).val) (h1 : (i 1).val = (y 1).val) :
    iblk1 V c 2 t y = V c (Pipeline.arrRef spec1 2) i := by
  obtain ⟨-, -, -, -, e0, e1, -⟩ := idx_facts t
  unfold iblk1
  show V c (Pipeline.arrRef spec1 2) (((cfg1.win 2).blk t).view.emb y) = _
  refine congrArg _ (funext fun a => Fin.ext ?_)
  match a with
  | ⟨0, _⟩ => show win1_2.index t (0 : Fin 2) * 128 + 1 * (y 0).val = (i 0).val; omega
  | ⟨1, _⟩ => show win1_2.index t (1 : Fin 2) * 128 + 1 * (y 1).val = (i 1).val; omega

/-- Every point's block of the second weight matrix is the whole matrix. -/
theorem blk_v (c : Dev nD) (t : Fin cfg1.N) (y : S128x128.Idx) (i : S128x128.Idx) (h0 : (i 0).val = (y 0).val) (h1 : (i 1).val = (y 1).val) :
    iblk1 V c 3 t y = V c (Pipeline.arrRef spec1 3) i := by
  obtain ⟨-, -, -, -, -, -, e0, e1, -⟩ := idx_facts t
  unfold iblk1
  show V c (Pipeline.arrRef spec1 3) (((cfg1.win 3).blk t).view.emb y) = _
  refine congrArg _ (funext fun a => Fin.ext ?_)
  match a with
  | ⟨0, _⟩ => show win1_3.index t (0 : Fin 2) * 128 + 1 * (y 0).val = (i 0).val; omega
  | ⟨1, _⟩ => show win1_3.index t (1 : Fin 2) * 128 + 1 * (y 1).val = (i 1).val; omega

/-- Every point's block of the bias row is the whole row. -/
theorem blk_b (c : Dev nD) (t : Fin cfg1.N) (y : S1x128.Idx) (i : S1x128.Idx) (h0 : (i 0).val = (y 0).val) (h1 : (i 1).val = (y 1).val) :
    iblk1 V c 4 t y = V c (Pipeline.arrRef spec1 4) i := by
  obtain ⟨-, -, -, -, -, -, -, -, e0, e1, -⟩ := idx_facts t
  unfold iblk1
  show V c (Pipeline.arrRef spec1 4) (((cfg1.win 4).blk t).view.emb y) = _
  refine congrArg _ (funext fun a => Fin.ext ?_)
  match a with
  | ⟨0, _⟩ => show win1_4.index t (0 : Fin 2) * 1 + 1 * (y 0).val = (i 0).val; omega
  | ⟨1, _⟩ => show win1_4.index t (1 : Fin 2) * 128 + 1 * (y 1).val = (i 1).val; omega

set_option maxHeartbeats 2000000 in
/-- What point t writes back is block t of `combineArr` of the five arrays the region finds. -/
theorem flushed_eq (c : Dev nD) (t : Fin cfg1.N) :
    (dat1 V c).flushed 5 t = ((cfg1.win 5).blk t).view.read (Elt Ideal)
      (Combine.combineArr (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  obtain ⟨-, -, -, -, -, -, -, -, -, -, e0, e1⟩ := idx_facts t
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Combine.combineArr _ _ _ _ _ (((cfg1.win 5).blk t).view.emb (ix2 p q))
  rw [Body.combine1_eq]
  refine (Body.combine0_apply _ _ _ _ _ p q).trans ?_
  have hr : ((((cfg1.win 5).blk t).view.emb (ix2 p q)) 0).val = t.val * 4000 + p.val := by
    show win1_5.index t (0 : Fin 2) * 4000 + 1 * p.val = _; omega
  have hc : ((((cfg1.win 5).blk t).view.emb (ix2 p q)) 1).val = q.val := by
    show win1_5.index t (1 : Fin 2) * 128 + 1 * q.val = _; omega
  unfold Combine.combineArr
  refine congrArg₂ max (congrArg₂ (· + ·) (congrArg₂ (· + ·) (Finset.sum_congr rfl fun k _ => ?_) (Finset.sum_congr rfl fun k _ => ?_)) ?_) rfl
  · rw [blk_a V c t (ix2 p k) (Combine.rowIdx (((cfg1.win 5).blk t).view.emb (ix2 p q)) k) hr rfl, blk_u V c t (ix2 k q) (Combine.wIdx (((cfg1.win 5).blk t).view.emb (ix2 p q)) k) rfl hc]
  · rw [blk_x V c t (ix2 p k) (Combine.rowIdx (((cfg1.win 5).blk t).view.emb (ix2 p q)) k) hr rfl, blk_v V c t (ix2 k q) (Combine.wIdx (((cfg1.win 5).blk t).view.emb (ix2 p q)) k) rfl hc]
  · rw [blk_b V c t (ix2 (0 : Fin 1) q) (Combine.bIdx (((cfg1.win 5).blk t).view.emb (ix2 p q))) rfl hc]

/-- An index of the result array is in point t's block iff its row is among rows 4000·t … 4000·t + 3999. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v45).slice (win1_5.rect t)).set ↔ _
  rw [View.set_slice_whole, Rect.mem_set_unit]
  exact Iff.rfl

/-- The 25 row blocks cover the result array: row n is in block n / 4000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_5 _, ?_⟩
  rw [mem_blk]
  obtain ⟨-, -, -, -, -, -, -, -, -, -, e0, e1⟩ := idx_facts ⟨(i 0).val / 4000, by rw [hN]; omega⟩
  intro a
  match a with
  | ⟨0, _⟩ =>
    show win1_5.index _ (0 : Fin 2) * 4000 ≤ (i 0).val ∧ (i 0).val < win1_5.index _ (0 : Fin 2) * 4000 + 4000
    rw [e0]; show (i 0).val / 4000 * 4000 ≤ (i 0).val ∧ (i 0).val < (i 0).val / 4000 * 4000 + 4000; omega
  | ⟨1, _⟩ =>
    show win1_5.index _ (1 : Fin 2) * 128 ≤ (i 1).val ∧ (i 1).val < win1_5.index _ (1 : Fin 2) * 128 + 128
    rw [e1]; omega

/-- The result array after the region. -/
theorem final (c : Dev nD) : (dat1 V c).arrAt 5 cfg1.N
    = Combine.combineArr (V c (Pipeline.arrRef spec1 0)) (V c (Pipeline.arrRef spec1 1)) (V c (Pipeline.arrRef spec1 2))
        (V c (Pipeline.arrRef spec1 3)) (V c (Pipeline.arrRef spec1 4)) :=
  (dat1 V c).arrAt_eq_of_cover 5 _ (fun t _ => flushed_eq V c t) (cover)

end Cert.KernelIdeal.Region1

end
-- ==== Proof.Region2.lean ====
/-
  Combine region 2: the array it leaves, as one function of the arrays it finds.

  The grid has 25 points; point t takes rows 4000·t … 4000·t + 3999 of the aggregated features and of the node features,
  the two weight matrices and the bias row whole, and writes rows 4000·t … 4000·t + 3999 of the result.  So the result
  array, which the 25 row blocks tile, ends at `combineArr` of the five arrays: row n, column h holds
      max ((∑ₖ a[n,k]·u[k,h] + ∑ₖ x[n,k]·v[k,h]) + b[0,h], 0).
-/
import proofs.«172212_j60224031425326_2_alg».proof.Proof.Gen.KernelIdeal.Frame
import proofs.«172212_j60224031425326_2_alg».proof.Proof.Body
import proofs.«172212_j60224031425326_2_alg».proof.Proof.Combine
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the output move one block of rows per point, the
    weights and the bias stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Point t's block of the aggregated features: rows 4000·t … of that array. -/
theorem blk_a (c : Dev nD) (t : Fin cfg2.N) (y : S4000x128.Idx) (i : S100000x128.Idx)
    (h0 : (i 0).val = t.val * 4000 + (y 0).val) (h1 : (i 1).val = (y 1).val) :
    iblk2 V c 0 t y = V c (Pipeline.arrRef spec2 0) i := by
  obtain ⟨e0, e1, -⟩ := idx_facts t
  unfold iblk2
  show V c (Pipeline.arrRef spec2 0) (((cfg2.win 0).blk t).view.emb y) = _
  refine congrArg _ (funext fun a => Fin.ext ?_)
  match a with
  | ⟨0, _⟩ => show win2_0.index t (0 : Fin 2) * 4000 + 1 * (y 0).val = (i 0).val; omega
  | ⟨1, _⟩ => show win2_0.index t (1 : Fin 2) * 128 + 1 * (y 1).val = (i 1).val; omega

/-- Point t's block of the node features: rows 4000·t … of that array. -/
theorem blk_x (c : Dev nD) (t : Fin cfg2.N) (y : S4000x128.Idx) (i : S100000x128.Idx)
    (h0 : (i 0).val = t.val * 4000 + (y 0).val) (h1 : (i 1).val = (y 1).val) :
    iblk2 V c 1 t y = V c (Pipeline.arrRef spec2 1) i := by
  obtain ⟨-, -, e0, e1, -⟩ := idx_facts t
  unfold iblk2
  show V c (Pipeline.arrRef spec2 1) (((cfg2.win 1).blk t).view.emb y) = _
  refine congrArg _ (funext fun a => Fin.ext ?_)
  match a with
  | ⟨0, _⟩ => show win2_1.index t (0 : Fin 2) * 4000 + 1 * (y 0).val = (i 0).val; omega
  | ⟨1, _⟩ => show win2_1.index t (1 : Fin 2) * 128 + 1 * (y 1).val = (i 1).val; omega

/-- Every point's block of the first weight matrix is the whole matrix. -/
theorem blk_u (c : Dev nD) (t : Fin cfg2.N) (y : S128x128.Idx) (i : S128x128.Idx) (h0 : (i 0).val = (y 0).val) (h1 : (i 1).val = (y 1).val) :
    iblk2 V c 2 t y = V c (Pipeline.arrRef spec2 2) i := by
  obtain ⟨-, -, -, -, e0, e1, -⟩ := idx_facts t
  unfold iblk2
  show V c (Pipeline.arrRef spec2 2) (((cfg2.win 2).blk t).view.emb y) = _
  refine congrArg _ (funext fun a => Fin.ext ?_)
  match a with
  | ⟨0, _⟩ => show win2_2.index t (0 : Fin 2) * 128 + 1 * (y 0).val = (i 0).val; omega
  | ⟨1, _⟩ => show win2_2.index t (1 : Fin 2) * 128 + 1 * (y 1).val = (i 1).val; omega

/-- Every point's block of the second weight matrix is the whole matrix. -/
theorem blk_v (c : Dev nD) (t : Fin cfg2.N) (y : S128x128.Idx) (i : S128x128.Idx) (h0 : (i 0).val = (y 0).val) (h1 : (i 1).val = (y 1).val) :
    iblk2 V c 3 t y = V c (Pipeline.arrRef spec2 3) i := by
  obtain ⟨-, -, -, -, -, -, e0, e1, -⟩ := idx_facts t
  unfold iblk2
  show V c (Pipeline.arrRef spec2 3) (((cfg2.win 3).blk t).view.emb y) = _
  refine congrArg _ (funext fun a => Fin.ext ?_)
  match a with
  | ⟨0, _⟩ => show win2_3.index t (0 : Fin 2) * 128 + 1 * (y 0).val = (i 0).val; omega
  | ⟨1, _⟩ => show win2_3.index t (1 : Fin 2) * 128 + 1 * (y 1).val = (i 1).val; omega

/-- Every point's block of the bias row is the whole row. -/
theorem blk_b (c : Dev nD) (t : Fin cfg2.N) (y : S1x128.Idx) (i : S1x128.Idx) (h0 : (i 0).val = (y 0).val) (h1 : (i 1).val = (y 1).val) :
    iblk2 V c 4 t y = V c (Pipeline.arrRef spec2 4) i := by
  obtain ⟨-, -, -, -, -, -, -, -, e0, e1, -⟩ := idx_facts t
  unfold iblk2
  show V c (Pipeline.arrRef spec2 4) (((cfg2.win 4).blk t).view.emb y) = _
  refine congrArg _ (funext fun a => Fin.ext ?_)
  match a with
  | ⟨0, _⟩ => show win2_4.index t (0 : Fin 2) * 1 + 1 * (y 0).val = (i 0).val; omega
  | ⟨1, _⟩ => show win2_4.index t (1 : Fin 2) * 128 + 1 * (y 1).val = (i 1).val; omega

set_option maxHeartbeats 2000000 in
/-- What point t writes back is block t of `combineArr` of the five arrays the region finds. -/
theorem flushed_eq (c : Dev nD) (t : Fin cfg2.N) :
    (dat2 V c).flushed 5 t = ((cfg2.win 5).blk t).view.read (Elt Ideal)
      (Combine.combineArr (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x128) hz, View.ld_unit_zero (S := S1x128) hz]
  obtain ⟨-, -, -, -, -, -, -, -, -, -, e0, e1⟩ := idx_facts t
  funext j
  obtain ⟨p, q, rfl⟩ : ∃ (p : Fin 4000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = Combine.combineArr _ _ _ _ _ (((cfg2.win 5).blk t).view.emb (ix2 p q))
  rw [Body.combine2_eq, Body.combine1_eq]
  refine (Body.combine0_apply _ _ _ _ _ p q).trans ?_
  have hr : ((((cfg2.win 5).blk t).view.emb (ix2 p q)) 0).val = t.val * 4000 + p.val := by
    show win2_5.index t (0 : Fin 2) * 4000 + 1 * p.val = _; omega
  have hc : ((((cfg2.win 5).blk t).view.emb (ix2 p q)) 1).val = q.val := by
    show win2_5.index t (1 : Fin 2) * 128 + 1 * q.val = _; omega
  unfold Combine.combineArr
  refine congrArg₂ max (congrArg₂ (· + ·) (congrArg₂ (· + ·) (Finset.sum_congr rfl fun k _ => ?_) (Finset.sum_congr rfl fun k _ => ?_)) ?_) rfl
  · rw [blk_a V c t (ix2 p k) (Combine.rowIdx (((cfg2.win 5).blk t).view.emb (ix2 p q)) k) hr rfl, blk_u V c t (ix2 k q) (Combine.wIdx (((cfg2.win 5).blk t).view.emb (ix2 p q)) k) rfl hc]
  · rw [blk_x V c t (ix2 p k) (Combine.rowIdx (((cfg2.win 5).blk t).view.emb (ix2 p q)) k) hr rfl, blk_v V c t (ix2 k q) (Combine.wIdx (((cfg2.win 5).blk t).view.emb (ix2 p q)) k) rfl hc]
  · rw [blk_b V c t (ix2 (0 : Fin 1) q) (Combine.bIdx (((cfg2.win 5).blk t).view.emb (ix2 p q))) rfl hc]

/-- An index of the result array is in point t's block iff its row is among rows 4000·t … 4000·t + 3999. -/
theorem mem_blk (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v66).slice (win2_5.rect t)).set ↔ _
  rw [View.set_slice_whole, Rect.mem_set_unit]
  exact Iff.rfl

/-- The 25 row blocks cover the result array: row n is in block n / 4000. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 25 := N_2
  refine ⟨⟨(i 0).val / 4000, by rw [hN]; omega⟩, flush2_5 _, ?_⟩
  rw [mem_blk]
  obtain ⟨-, -, -, -, -, -, -, -, -, -, e0, e1⟩ := idx_facts ⟨(i 0).val / 4000, by rw [hN]; omega⟩
  intro a
  match a with
  | ⟨0, _⟩ =>
    show win2_5.index _ (0 : Fin 2) * 4000 ≤ (i 0).val ∧ (i 0).val < win2_5.index _ (0 : Fin 2) * 4000 + 4000
    rw [e0]; show (i 0).val / 4000 * 4000 ≤ (i 0).val ∧ (i 0).val < (i 0).val / 4000 * 4000 + 4000; omega
  | ⟨1, _⟩ =>
    show win2_5.index _ (1 : Fin 2) * 128 ≤ (i 1).val ∧ (i 1).val < win2_5.index _ (1 : Fin 2) * 128 + 128
    rw [e1]; omega

/-- The result array after the region. -/
theorem final (c : Dev nD) : (dat2 V c).arrAt 5 cfg2.N
    = Combine.combineArr (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 _ (fun t _ => flushed_eq V c t) (cover)

end Cert.KernelIdeal.Region2

end
-- ==== Proof.Pairs.lean ====
/-
  The last stage as functions of whole arrays, in the kernel's arrangement.  The node features re-laid in pairs are
  an array `P` of 50000 rows × 256 columns: the left node of pair r is columns 0 … 127 of row r, the right node columns
  128 … 255.  With a weight column `w` (128 × 1) and a 1 × 1 bias `b`:
      left[r,q] = P[r,q],   right[r,q] = P[r,128+q],   dist[r,q] = √((left − right)·(left − right) + ε),
      sig[r,0]  = logistic (∑ₖ dist[r,k]·w[k,0] + b[0,0]).
-/
import proofs.«172212_j60224031425326_2_alg».proof.KernelIdeal
import Idealize.ShloMosaic.PureOps.Ideal
import Idealize.ShloMosaic.Lib.ValueIdx

noncomputable section

namespace Cert.KernelIdeal.Pairs

open Cert.KernelIdeal
open Idealize.ShloMosaic Idealize.ShloMosaic.ValueIdx

/-- The left node's entry of a pair. -/
abbrev leftIdx (i : S50000x128.Idx) : S50000x256.Idx := fun a => match a with
  | ⟨0, _⟩ => ⟨(i 0).val, (i 0).isLt⟩
  | ⟨1, _⟩ => ⟨(i 1).val, by have h1 : (i 1).val < 128 := (i 1).isLt; show (i 1).val < 256; omega⟩

/-- The right node's entry of a pair. -/
abbrev rightIdx (i : S50000x128.Idx) : S50000x256.Idx := fun a => match a with
  | ⟨0, _⟩ => ⟨(i 0).val, (i 0).isLt⟩
  | ⟨1, _⟩ => ⟨128 + (i 1).val, by have h1 : (i 1).val < 128 := (i 1).isLt; show 128 + (i 1).val < 256; omega⟩

/-- Pair `i`'s entry in column k. -/
abbrev pairIdx (i : S50000x1.Idx) (k : Fin 128) : S50000x128.Idx := fun a => match a with
  | ⟨0, _⟩ => ⟨(i 0).val, (i 0).isLt⟩
  | ⟨1, _⟩ => ⟨k.val, k.isLt⟩

/-- Row k of the weight column. -/
abbrev colIdx (i : S50000x1.Idx) (k : Fin 128) : S128x1.Idx := fun a => match a with
  | ⟨0, _⟩ => ⟨k.val, k.isLt⟩
  | ⟨1, _⟩ => ⟨(i 1).val, (i 1).isLt⟩

/-- The one entry of the bias. -/
abbrev biasIdx (i : S50000x1.Idx) : S1x1.Idx := fun a => match a with
  | ⟨0, _⟩ => ⟨0, Nat.one_pos⟩
  | ⟨1, _⟩ => ⟨(i 1).val, (i 1).isLt⟩

def leftArr (P : FVec Ideal S50000x256 .f32) : FVec Ideal S50000x128 .f32 := fun i => P (leftIdx i)

def rightArr (P : FVec Ideal S50000x256 .f32) : FVec Ideal S50000x128 .f32 := fun i => P (rightIdx i)

def distArr (P : FVec Ideal S50000x256 .f32) : FVec Ideal S50000x128 .f32 := fun i =>
  Ideal.sqrt ((P (leftIdx i) - P (rightIdx i)) * (P (leftIdx i) - P (rightIdx i)) + Ideal.ofBits .f32 0x3A83126F#32)

def sigArr (P : FVec Ideal S50000x256 .f32) (w : FVec Ideal S128x1 .f32) (b : FVec Ideal S1x1 .f32) : FVec Ideal S50000x1 .f32 := fun i =>
  Ideal.logistic ((∑ k : Fin 128, distArr P (pairIdx i k) * w (colIdx i k)) + b (biasIdx i))

theorem leftArr_apply (P : FVec Ideal S50000x256 .f32) (i : S50000x128.Idx) : leftArr P i = P (leftIdx i) := rfl

theorem rightArr_apply (P : FVec Ideal S50000x256 .f32) (i : S50000x128.Idx) : rightArr P i = P (rightIdx i) := rfl

theorem distArr_apply (P : FVec Ideal S50000x256 .f32) (i : S50000x128.Idx) : distArr P i
    = Ideal.sqrt ((P (leftIdx i) - P (rightIdx i)) * (P (leftIdx i) - P (rightIdx i)) + Ideal.ofBits .f32 0x3A83126F#32) := rfl

theorem sigArr_apply (P : FVec Ideal S50000x256 .f32) (w : FVec Ideal S128x1 .f32) (b : FVec Ideal S1x1 .f32) (i : S50000x1.Idx) :
    sigArr P w b i = Ideal.logistic ((∑ k : Fin 128, distArr P (pairIdx i k) * w (colIdx i k)) + b (biasIdx i)) := rfl

end Cert.KernelIdeal.Pairs

end
-- ==== Proof.Region3.lean ====
/-
  The final region: the four arrays it leaves, each as one function of the arrays it finds.

  The grid has 25 points; point t takes rows 2000·t … 2000·t + 1999 of the paired features (all 256 columns), the weight
  column and the 1 × 1 bias whole, and writes rows 2000·t … 2000·t + 1999 of each of the four results.  The 25 row
  blocks tile each result array, which therefore ends at the function of `Pairs` that the body computes entry by entry.
-/
import proofs.«172212_j60224031425326_2_alg».proof.Proof.Gen.KernelIdeal.Frame
import proofs.«172212_j60224031425326_2_alg».proof.Proof.Body
import proofs.«172212_j60224031425326_2_alg».proof.Proof.Pairs
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the paired features and the four results move one block of rows per point,
    the weight column and the bias stay at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Point t's block of the paired features: rows 2000·t … of that array. -/
theorem blk_p (c : Dev nD) (t : Fin cfg3.N) (y : S2000x256.Idx) (i : S50000x256.Idx)
    (h0 : (i 0).val = t.val * 2000 + (y 0).val) (h1 : (i 1).val = (y 1).val) :
    iblk3 V c 0 t y = V c (Pipeline.arrRef spec3 0) i := by
  obtain ⟨e0, e1, -⟩ := idx_facts t
  unfold iblk3
  show V c (Pipeline.arrRef spec3 0) (((cfg3.win 0).blk t).view.emb y) = _
  refine congrArg _ (funext fun a => Fin.ext ?_)
  match a with
  | ⟨0, _⟩ => show win3_0.index t (0 : Fin 2) * 2000 + 1 * (y 0).val = (i 0).val; omega
  | ⟨1, _⟩ => show win3_0.index t (1 : Fin 2) * 256 + 1 * (y 1).val = (i 1).val; omega

/-- Every point's block of the weight column is the whole column. -/
theorem blk_w (c : Dev nD) (t : Fin cfg3.N) (y : S128x1.Idx) : iblk3 V c 1 t y = V c (Pipeline.arrRef spec3 1) y := by
  obtain ⟨-, -, e0, e1, -⟩ := idx_facts t
  unfold iblk3
  show V c (Pipeline.arrRef spec3 1) (((cfg3.win 1).blk t).view.emb y) = _
  refine congrArg _ (funext fun a => Fin.ext ?_)
  match a with
  | ⟨0, _⟩ => show win3_1.index t (0 : Fin 2) * 128 + 1 * (y 0).val = (y 0).val; omega
  | ⟨1, _⟩ => show win3_1.index t (1 : Fin 2) * 1 + 1 * (y 1).val = (y 1).val; omega

/-- Every point's block of the bias is the whole 1 × 1 array. -/
theorem blk_b (c : Dev nD) (t : Fin cfg3.N) (y : S1x1.Idx) : iblk3 V c 2 t y = V c (Pipeline.arrRef spec3 2) y := by
  obtain ⟨-, -, -, -, e0, e1, -⟩ := idx_facts t
  unfold iblk3
  show V c (Pipeline.arrRef spec3 2) (((cfg3.win 2).blk t).view.emb y) = _
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 1 + 1 * (y 1).val = (y 1).val; omega

/-- The left half of point t's block at (p, q): the paired features at row 2000·t + p, column q. -/
theorem left_at (c : Dev nD) (t : Fin cfg3.N) (p : Fin 2000) (q : Fin 128) (i : S50000x128.Idx)
    (h0 : (i 0).val = t.val * 2000 + p.val) (h1 : (i 1).val = q.val) :
    View.ld (iblk3 V c 0 t) r3_0 (ix2 p q) = V c (Pipeline.arrRef spec3 0) (Pairs.leftIdx i) := by
  show iblk3 V c 0 t (r3_0.emb (ix2 p q)) = _
  refine blk_p V c t _ _ ?_ ?_
  · show (i 0).val = t.val * 2000 + (0 + 1 * p.val); omega
  · show (i 1).val = 0 + 1 * q.val; omega

/-- The right half of point t's block at (p, q): the paired features at row 2000·t + p, column 128 + q. -/
theorem right_at (c : Dev nD) (t : Fin cfg3.N) (p : Fin 2000) (q : Fin 128) (i : S50000x128.Idx)
    (h0 : (i 0).val = t.val * 2000 + p.val) (h1 : (i 1).val = q.val) :
    View.ld (iblk3 V c 0 t) r3_1 (ix2 p q) = V c (Pipeline.arrRef spec3 0) (Pairs.rightIdx i) := by
  show iblk3 V c 0 t (r3_1.emb (ix2 p q)) = _
  refine blk_p V c t _ _ ?_ ?_
  · show (i 0).val = t.val * 2000 + (0 + 1 * p.val); omega
  · show 128 + (i 1).val = 128 + 1 * q.val; omega

/-- The body's distance at (p, q) of point t's block is `distArr` at row 2000·t + p, column q. -/
theorem dist_at (c : Dev nD) (t : Fin cfg3.N) (p : Fin 2000) (q : Fin 128) (i : S50000x128.Idx)
    (h0 : (i 0).val = t.val * 2000 + p.val) (h1 : (i 1).val = q.val) :
    k3_pay3 (F := Ideal) (View.ld (iblk3 V c 0 t) r3_0) (View.ld (iblk3 V c 0 t) r3_1) (ix2 p q)
      = Pairs.distArr (V c (Pipeline.arrRef spec3 0)) i := by
  refine (Body.dist_apply _ _ _).trans ?_
  rw [left_at V c t p q i h0 h1, right_at V c t p q i h0 h1]
  rfl

/-! ## What each point writes back -/

theorem flushed_left (c : Dev nD) (t : Fin cfg3.N) :
    (dat3 V c).flushed 5 t = ((cfg3.win 5).blk t).view.read (Elt Ideal) (Pairs.leftArr (V c (Pipeline.arrRef spec3 0))) := by
  show (cfg3.win 5).cut (grid3.coords t) ((dat3 V c).after 5 t) = _
  rw [after3_5]
  unfold out3_5
  rw [View.canon_unit_zero hz]
  obtain ⟨-, -, -, -, -, -, -, -, -, -, e0, e1, -⟩ := idx_facts t
  funext j
  obtain ⟨p, q, rfl⟩ : ∃ (p : Fin 2000) (q : Fin 128), j = ix2 p q := ⟨j 0, j 1, eq_ix2 j⟩
  show k3_pay1 (F := Ideal) (View.ld (iblk3 V c 0 t) r3_0) (ix2 p q) = Pairs.leftArr _ (((cfg3.win 5).blk t).view.emb (ix2 p q))
  rw [Body.left_eq]
  exact left_at V c t p q _ (by show win3_5.index t (0 : Fin 2) * 2000 + 1 * p.val = _; omega)
    (by show win3_5.index t (1 : Fin 2) * 128 + 1 * q.val = _; omega)

theorem flushed_right (c : Dev nD) (t : Fin cfg3.N) :
    (dat3 V c).flushed 6 t = ((cfg3.win 6).blk t).view.read (Elt Ideal) (Pairs.rightArr (V c (Pipeline.arrRef spec3 0))) := by
  show (cfg3.win 6).cut (grid3.coords t) ((dat3 V c).after 6 t) = _
  rw [after3_6]
  unfold out3_6
  rw [View.canon_unit_zero hz]
  obtain ⟨-, -, -, -, -, -, -, -, -, -, -, -, e0, e1⟩ := idx_facts t
  funext j
  obtain ⟨p, q, rfl⟩ : ∃ (p : Fin 2000) (q : Fin 128), j = ix2 p q := ⟨j 0, j 1, eq_ix2 j⟩
  show k3_pay2 (F := Ideal) (View.ld (iblk3 V c 0 t) r3_1) (ix2 p q) = Pairs.rightArr _ (((cfg3.win 6).blk t).view.emb (ix2 p q))
  rw [Body.right_eq]
  exact right_at V c t p q _ (by show win3_6.index t (0 : Fin 2) * 2000 + 1 * p.val = _; omega)
    (by show win3_6.index t (1 : Fin 2) * 128 + 1 * q.val = _; omega)

theorem flushed_dist (c : Dev nD) (t : Fin cfg3.N) :
    (dat3 V c).flushed 4 t = ((cfg3.win 4).blk t).view.read (Elt Ideal) (Pairs.distArr (V c (Pipeline.arrRef spec3 0))) := by
  show (cfg3.win 4).cut (grid3.coords t) ((dat3 V c).after 4 t) = _
  rw [after3_4]
  unfold out3_4
  rw [View.canon_unit_zero hz]
  obtain ⟨-, -, -, -, -, -, -, -, e0, e1, -⟩ := idx_facts t
  funext j
  obtain ⟨p, q, rfl⟩ : ∃ (p : Fin 2000) (q : Fin 128), j = ix2 p q := ⟨j 0, j 1, eq_ix2 j⟩
  show k3_pay3 (F := Ideal) (View.ld (iblk3 V c 0 t) r3_0) (View.ld (iblk3 V c 0 t) r3_1) (ix2 p q)
    = Pairs.distArr _ (((cfg3.win 4).blk t).view.emb (ix2 p q))
  exact dist_at V c t p q _ (by show win3_4.index t (0 : Fin 2) * 2000 + 1 * p.val = _; omega)
    (by show win3_4.index t (1 : Fin 2) * 128 + 1 * q.val = _; omega)

theorem flushed_sig (c : Dev nD) (t : Fin cfg3.N) :
    (dat3 V c).flushed 3 t = ((cfg3.win 3).blk t).view.read (Elt Ideal)
      (Pairs.sigArr (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S128x1) hz, View.ld_unit_zero (S := S1x1) hz]
  obtain ⟨-, -, -, -, -, -, e0, e1, -⟩ := idx_facts t
  funext j
  obtain ⟨p, u, rfl⟩ : ∃ (p : Fin 2000) (u : Fin 1), j = ix2 p u := ⟨j 0, j 1, eq_ix2 j⟩
  show k3_pay4 (F := Ideal) (View.ld (iblk3 V c 0 t) r3_0) (View.ld (iblk3 V c 0 t) r3_1) (iblk3 V c 1 t) (iblk3 V c 2 t) (ix2 p u)
    = Pairs.sigArr _ _ _ (((cfg3.win 3).blk t).view.emb (ix2 p u))
  refine (Body.sig_apply _ _ _ _ p u).trans ?_
  have hr : ((((cfg3.win 3).blk t).view.emb (ix2 p u)) 0).val = t.val * 2000 + p.val := by
    show win3_3.index t (0 : Fin 2) * 2000 + 1 * p.val = _; omega
  have hc : ((((cfg3.win 3).blk t).view.emb (ix2 p u)) 1).val = u.val := by
    show win3_3.index t (1 : Fin 2) * 1 + 1 * u.val = _; omega
  unfold Pairs.sigArr
  refine congrArg Ideal.logistic (congrArg₂ (· + ·) (Finset.sum_congr rfl fun k _ => ?_) ?_)
  · rw [dist_at V c t p k (Pairs.pairIdx (((cfg3.win 3).blk t).view.emb (ix2 p u)) k) hr rfl, blk_w V c t (ix2 k u)]
    exact congrArg _ (congrArg _ (funext fun a => Fin.ext (by match a with | ⟨0, _⟩ => rfl | ⟨1, _⟩ => exact hc.symm)))
  · rw [blk_b V c t (ix2 (0 : Fin 1) u)]
    exact congrArg _ (funext fun a => Fin.ext (by match a with | ⟨0, _⟩ => rfl | ⟨1, _⟩ => exact hc.symm))

/-! ## The row blocks cover each result array -/

theorem mem_blk3 (t : Fin cfg3.N) (i : S50000x1.Idx) :
    i ∈ ((cfg3.win 3).blk t).view.set ↔ ∀ a : Fin 2, win3_3.index t a * S2000x1.size a ≤ (i a).val ∧ (i a).val < win3_3.index t a * S2000x1.size a + S2000x1.size a := by
  show i ∈ ((View.whole main_v70_0).slice (win3_3.rect t)).set ↔ _
  rw [View.set_slice_whole, Rect.mem_set_unit]
  exact Iff.rfl

theorem cover3 (i : S50000x1.Idx) : ∃ t : Fin cfg3.N, (cfg3.win 3).flush t = true ∧ i ∈ ((cfg3.win 3).blk t).view.set := by
  have hi0 : (i 0).val < 50000 := (i 0).isLt
  have hi1 : (i 1).val < 1 := (i 1).isLt
  have hN : cfg3.N = 25 := N_3
  refine ⟨⟨(i 0).val / 2000, by rw [hN]; omega⟩, flush3_3 _, ?_⟩
  rw [mem_blk3]
  obtain ⟨-, -, -, -, -, -, e0, e1, -⟩ := idx_facts ⟨(i 0).val / 2000, by rw [hN]; omega⟩
  intro a
  match a with
  | ⟨0, _⟩ =>
    show win3_3.index _ (0 : Fin 2) * 2000 ≤ (i 0).val ∧ (i 0).val < win3_3.index _ (0 : Fin 2) * 2000 + 2000
    rw [e0]; show (i 0).val / 2000 * 2000 ≤ (i 0).val ∧ (i 0).val < (i 0).val / 2000 * 2000 + 2000; omega
  | ⟨1, _⟩ =>
    show win3_3.index _ (1 : Fin 2) * 1 ≤ (i 1).val ∧ (i 1).val < win3_3.index _ (1 : Fin 2) * 1 + 1
    rw [e1]; omega

theorem mem_blk4 (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v70_1).slice (win3_4.rect t)).set ↔ _
  rw [View.set_slice_whole, Rect.mem_set_unit]
  exact Iff.rfl

theorem cover4 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_4 _, ?_⟩
  rw [mem_blk4]
  obtain ⟨-, -, -, -, -, -, -, -, e0, e1, -⟩ := idx_facts ⟨(i 0).val / 2000, by rw [hN]; omega⟩
  intro a
  match a with
  | ⟨0, _⟩ =>
    show win3_4.index _ (0 : Fin 2) * 2000 ≤ (i 0).val ∧ (i 0).val < win3_4.index _ (0 : Fin 2) * 2000 + 2000
    rw [e0]; show (i 0).val / 2000 * 2000 ≤ (i 0).val ∧ (i 0).val < (i 0).val / 2000 * 2000 + 2000; omega
  | ⟨1, _⟩ =>
    show win3_4.index _ (1 : Fin 2) * 128 ≤ (i 1).val ∧ (i 1).val < win3_4.index _ (1 : Fin 2) * 128 + 128
    rw [e1]; omega

theorem mem_blk5 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v70_2).slice (win3_5.rect t)).set ↔ _
  rw [View.set_slice_whole, Rect.mem_set_unit]
  exact Iff.rfl

theorem cover5 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_5 _, ?_⟩
  rw [mem_blk5]
  obtain ⟨-, -, -, -, -, -, -, -, -, -, e0, e1, -⟩ := idx_facts ⟨(i 0).val / 2000, by rw [hN]; omega⟩
  intro a
  match a with
  | ⟨0, _⟩ =>
    show win3_5.index _ (0 : Fin 2) * 2000 ≤ (i 0).val ∧ (i 0).val < win3_5.index _ (0 : Fin 2) * 2000 + 2000
    rw [e0]; show (i 0).val / 2000 * 2000 ≤ (i 0).val ∧ (i 0).val < (i 0).val / 2000 * 2000 + 2000; omega
  | ⟨1, _⟩ =>
    show win3_5.index _ (1 : Fin 2) * 128 ≤ (i 1).val ∧ (i 1).val < win3_5.index _ (1 : Fin 2) * 128 + 128
    rw [e1]; omega

theorem mem_blk6 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v70_3).slice (win3_6.rect t)).set ↔ _
  rw [View.set_slice_whole, Rect.mem_set_unit]
  exact Iff.rfl

theorem cover6 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_6 _, ?_⟩
  rw [mem_blk6]
  obtain ⟨-, -, -, -, -, -, -, -, -, -, -, -, e0, e1⟩ := idx_facts ⟨(i 0).val / 2000, by rw [hN]; omega⟩
  intro a
  match a with
  | ⟨0, _⟩ =>
    show win3_6.index _ (0 : Fin 2) * 2000 ≤ (i 0).val ∧ (i 0).val < win3_6.index _ (0 : Fin 2) * 2000 + 2000
    rw [e0]; show (i 0).val / 2000 * 2000 ≤ (i 0).val ∧ (i 0).val < (i 0).val / 2000 * 2000 + 2000; omega
  | ⟨1, _⟩ =>
    show win3_6.index _ (1 : Fin 2) * 128 ≤ (i 1).val ∧ (i 1).val < win3_6.index _ (1 : Fin 2) * 128 + 128
    rw [e1]; omega

/-! ## The four result arrays after the region -/

theorem final_sig (c : Dev nD) : (dat3 V c).arrAt 3 cfg3.N
    = Pairs.sigArr (V c (Pipeline.arrRef spec3 0)) (V c (Pipeline.arrRef spec3 1)) (V c (Pipeline.arrRef spec3 2)) :=
  (dat3 V c).arrAt_eq_of_cover 3 _ (fun t _ => flushed_sig V c t) cover3

theorem final_dist (c : Dev nD) : (dat3 V c).arrAt 4 cfg3.N = Pairs.distArr (V c (Pipeline.arrRef spec3 0)) :=
  (dat3 V c).arrAt_eq_of_cover 4 _ (fun t _ => flushed_dist V c t) cover4

theorem final_left (c : Dev nD) : (dat3 V c).arrAt 5 cfg3.N = Pairs.leftArr (V c (Pipeline.arrRef spec3 0)) :=
  (dat3 V c).arrAt_eq_of_cover 5 _ (fun t _ => flushed_left V c t) cover5

theorem final_right (c : Dev nD) : (dat3 V c).arrAt 6 cfg3.N = Pairs.rightArr (V c (Pipeline.arrRef spec3 0)) :=
  (dat3 V c).arrAt_eq_of_cover 6 _ (fun t _ => flushed_right V c t) cover6

end Cert.KernelIdeal.Region3

end
-- ==== Proof.Bridge.lean ====
/-
  The two arrangements of one layer agree.

  The kernel contracts the aggregated features and the node features with the TRANSPOSED weight matrices and adds the
  bias last, (g·u + x·v) + b with u = wrᵀ, v = woᵀ; the reference contracts along the weights' columns and adds the bias
  in the middle, (g·wrᵀ + b) + x·woᵀ.  Entry by entry the two are the same three extended reals added in two orders, and
  addition of extended reals is commutative and associative: no finiteness is used.
-/
import proofs.«172212_j60224031425326_2_alg».proof.Proof.Combine
import proofs.«172212_j60224031425326_2_alg».proof.Proof.RefLayer
import proofs.«172212_j60224031425326_2_alg».proof.Proof.Gen.KernelIdeal
import Idealize.ShloMosaic.Lib.Pipeline.Value
import Idealize.ShloMosaic.Lib.ValueLayout
import Idealize.ShloMosaic.PureOps.IdealRules

noncomputable section

namespace Cert.Bridge

open Idealize.ShloMosaic Idealize.ShloMosaic.ValueIdx
open Cert.KernelIdeal.Facts₀
open Cert.ReferenceIdeal.Read

/-- One layer: the kernel's arrangement over the transposed weights and the reshaped bias is the reference's layer. -/
theorem layer_eq (g x : FVec Ideal Cert.ReferenceIdeal.S100000x128 .f32) (wr wo : FVec Ideal Cert.ReferenceIdeal.S128x128 .f32)
    (b : FVec Ideal Cert.ReferenceIdeal.S128 .f32) :
    Cert.KernelIdeal.Combine.combineArr g x
        (transpose Cert.KernelIdeal.S128x128 [1, 0] wr transposes_S128x128_S128x128_1_0)
        (transpose Cert.KernelIdeal.S128x128 [1, 0] wo transposes_S128x128_S128x128_1_0)
        (shapeCast Cert.KernelIdeal.S1x128 b shapeCasts_S128_S1x128)
      = Cert.ReferenceIdeal.Layer.layer g x wr wo b := by
  funext i
  rw [Cert.ReferenceIdeal.Layer.layer_apply]
  unfold Cert.KernelIdeal.Combine.combineArr
  have hu : ∀ (w : FVec Ideal Cert.ReferenceIdeal.S128x128 .f32) (k : Fin 128),
      transpose Cert.KernelIdeal.S128x128 [1, 0] w transposes_S128x128_S128x128_1_0 (Cert.KernelIdeal.Combine.wIdx i k)
        = w (ridx_main_v16 i k) := fun w k =>
    transpose_apply _ w _ _ _ (fun b => match b with | ⟨0, _⟩ => rfl | ⟨1, _⟩ => rfl)
  have hr : ∀ k : Fin 128, Cert.KernelIdeal.Combine.rowIdx i k = lidx_main_v16 i k := fun k =>
    funext fun a => by match a with | ⟨0, _⟩ => rfl | ⟨1, _⟩ => rfl
  have hsum : ∀ (a : FVec Ideal Cert.ReferenceIdeal.S100000x128 .f32) (w : FVec Ideal Cert.ReferenceIdeal.S128x128 .f32),
      (∑ k : Fin 128, a (Cert.KernelIdeal.Combine.rowIdx i k)
          * transpose Cert.KernelIdeal.S128x128 [1, 0] w transposes_S128x128_S128x128_1_0 (Cert.KernelIdeal.Combine.wIdx i k))
        = ∑ k : Fin 128, a (lidx_main_v16 i k) * w (ridx_main_v16 i k) := fun a w =>
    Finset.sum_congr rfl fun k _ => by rw [hu w k, hr k]
  have hb : shapeCast Cert.KernelIdeal.S1x128 b shapeCasts_S128_S1x128 (Cert.KernelIdeal.Combine.bIdx i)
      = b (idx_main_v19 (idx_main_v20 i)) :=
    shapeCast_apply b _ _ _ (by
      rw [Shape.rowMajor_val_one, Shape.rowMajor_val_two]
      show (i 1).val = 0 * 128 + (i 1).val
      omega)
  rw [hsum g wr, hsum x wo, hb]
  exact congrArg (max · 0) (add_right_comm _ _ _)

end Cert.Bridge

end
-- ==== Proof.BridgePairs.lean ====
/-
  The last stage's two spellings agree: both programs read the two halves of a pair out of the same re-laid array and
  take the same √((l−r)·(l−r) + ε); the kernel contracts the distances with the transposed weight column and adds the
  reshaped bias where the reference contracts with the weight row and adds the broadcast bias — the same sum —; and the
  logistic function is, by its definition over the extended reals, 1 / (1 + e^(−z)) as the reference spells it.
-/
import proofs.«172212_j60224031425326_2_alg».proof.Proof.Pairs
import proofs.«172212_j60224031425326_2_alg».proof.Proof.RefLayer
import proofs.«172212_j60224031425326_2_alg».proof.Proof.Gen.KernelIdeal
import Idealize.ShloMosaic.Lib.Pipeline.Value
import Idealize.ShloMosaic.Lib.ValueLayout
import Idealize.ShloMosaic.PureOps.IdealRules

noncomputable section

namespace Cert.Bridge

open Idealize.ShloMosaic Idealize.ShloMosaic.ValueIdx
open Cert.KernelIdeal.Facts₀
open Cert.ReferenceIdeal.Read

/-! ## The last stage -/

section LastStage

variable (x0 : FVec Ideal Cert.ReferenceIdeal.S100000x128 .f32) (x1 : IVec Cert.ReferenceIdeal.S2x1600000 32)
  (x3 x5 : FVec Ideal Cert.ReferenceIdeal.S3x128x128 .f32) (x4 : FVec Ideal Cert.ReferenceIdeal.S3x128 .f32)
  (x6 : FVec Ideal Cert.ReferenceIdeal.S1x128 .f32) (x7 : FVec Ideal Cert.ReferenceIdeal.S1 .f32)

/-- Column q of a pair's left half, in the two programs' spellings. -/
theorem left_idx (i : Cert.ReferenceIdeal.S50000x128.Idx) : idx_main_v74 i = Cert.KernelIdeal.Pairs.leftIdx i :=
  funext fun a => by match a with | ⟨0, _⟩ => rfl | ⟨1, _⟩ => rfl

/-- Column q of a pair's right half, in the two programs' spellings. -/
theorem right_idx (i : Cert.ReferenceIdeal.S50000x128.Idx) : idx_main_v75 i = Cert.KernelIdeal.Pairs.rightIdx i :=
  funext fun a => by match a with | ⟨0, _⟩ => rfl | ⟨1, _⟩ => rfl

/-- The reference's left halves are the kernel's reading of the re-laid features. -/
theorem left_eq : val_main_v74 (F := Ideal) x0 x1 x3 x4 x5 = Cert.KernelIdeal.Pairs.leftArr (val_main_v73 (F := Ideal) x0 x1 x3 x4 x5) := by
  funext i
  rw [val_main_v74_apply, Cert.KernelIdeal.Pairs.leftArr_apply, left_idx]

/-- The reference's right halves likewise. -/
theorem right_eq : val_main_v75 (F := Ideal) x0 x1 x3 x4 x5 = Cert.KernelIdeal.Pairs.rightArr (val_main_v73 (F := Ideal) x0 x1 x3 x4 x5) := by
  funext i
  rw [val_main_v75_apply, Cert.KernelIdeal.Pairs.rightArr_apply, right_idx]

/-- The reference's distances are the kernel's. -/
theorem dist_eq : val_main_v80 (F := Ideal) x0 x1 x3 x4 x5 = Cert.KernelIdeal.Pairs.distArr (val_main_v73 (F := Ideal) x0 x1 x3 x4 x5) := by
  funext i
  rw [val_main_v80_apply, val_main_v79_apply, val_main_v77_apply, val_main_v76_apply, val_main_v78_apply, val_main_cst_7_apply,
    val_main_v74_apply, val_main_v75_apply, Cert.KernelIdeal.Pairs.distArr_apply, left_idx, right_idx]
  generalize val_main_v73 (F := Ideal) x0 x1 x3 x4 x5 = P
  simp only [Ideal.ofBits_def, Ideal.hostUnary_sqrt_def, Ideal.addf_def, Ideal.mulf_def, Ideal.subf_def]

/-- The reference's logistic values, spelt 1 / (1 + e^(−z)), are the kernel's over the transposed weight column and the
    reshaped bias. -/
theorem sig_eq : val_main_v90 (F := Ideal) x0 x1 x3 x4 x5 x6 x7
    = Cert.KernelIdeal.Pairs.sigArr (val_main_v73 (F := Ideal) x0 x1 x3 x4 x5)
        (transpose Cert.KernelIdeal.S128x1 [1, 0] x6 transposes_S1x128_S128x1_1_0)
        (shapeCast Cert.KernelIdeal.S1x1 x7 shapeCasts_S1_S1x1) := by
  funext i
  rw [val_main_v90_apply, val_main_v89_apply, val_main_cst_9_apply, val_main_v88_apply, val_main_v87_apply, val_main_cst_8_apply,
    val_main_v86_apply, val_main_v85_apply, val_main_v84_apply, val_main_v81_apply, val_main_v83_apply, val_main_v82_apply, dist_eq,
    Cert.KernelIdeal.Pairs.sigArr_apply]
  generalize val_main_v73 (F := Ideal) x0 x1 x3 x4 x5 = P
  have h1 : Ideal.ofBits .f32 0x3F800000#32 = 1 := IdealRules.sign_bit.ideal_onePat .f32
  have hw : ∀ k : Fin 128, transpose Cert.KernelIdeal.S128x1 [1, 0] x6 transposes_S1x128_S128x1_1_0 (Cert.KernelIdeal.Pairs.colIdx i k)
      = x6 (ridx_main_v81 i k) := fun k =>
    transpose_apply _ x6 _ _ _ (fun b => match b with | ⟨0, _⟩ => rfl | ⟨1, _⟩ => rfl)
  have hb : shapeCast Cert.KernelIdeal.S1x1 x7 shapeCasts_S1_S1x1 (Cert.KernelIdeal.Pairs.biasIdx i) = x7 (idx_main_v82 (idx_main_v83 i)) :=
    shapeCast_apply x7 _ _ _ (by
      rw [Shape.rowMajor_val_one, Shape.rowMajor_val_two]
      have hi : (i 1).val < 1 := (i 1).isLt
      show 0 = 0 * 1 + (i 1).val
      omega)
  have hp : ∀ k : Fin 128, Cert.KernelIdeal.Pairs.pairIdx i k = lidx_main_v81 i k := fun k =>
    funext fun a => by match a with | ⟨0, _⟩ => rfl | ⟨1, _⟩ => rfl
  have hsum : (∑ k : Fin 128, Cert.KernelIdeal.Pairs.distArr P (Cert.KernelIdeal.Pairs.pairIdx i k)
        * transpose Cert.KernelIdeal.S128x1 [1, 0] x6 transposes_S1x128_S128x1_1_0 (Cert.KernelIdeal.Pairs.colIdx i k))
      = ∑ k : Fin 128, Cert.KernelIdeal.Pairs.distArr P (lidx_main_v81 i k) * x6 (ridx_main_v81 i k) :=
    Finset.sum_congr rfl fun k _ => by rw [hw k, hp k]
  rw [hsum, hb]
  simp only [Ideal.ofBits_def, Ideal.hostDivf_def, Ideal.addf_def, Ideal.hostUnary_exp_def, Ideal.hostNegf_def, Ideal.negf_def, h1]
  rfl

end LastStage

end Cert.Bridge

end
-- ==== Proof.Chain.lean ====
/-
  The kernel's four result arrays as the reference's stages of the argument arrays.

  Layer by layer: a combine region leaves its arrangement of the layer over the arrays it finds (`Region*.final`); those
  arrays are the neighbourhood sum of the previous layer's features, those features, the transposed weight slices and the
  bias row (`Stages`); and that arrangement is the reference's layer (`Bridge.layer_eq`).  So after region k the result
  array holds the reference's features after layer k + 1.  The last region reads them re-laid in pairs and leaves the
  reference's four results (`Region3.final_*`, `Bridge.*_eq`).
-/
import proofs.«172212_j60224031425326_2_alg».proof.Proof.Stages
import proofs.«172212_j60224031425326_2_alg».proof.Proof.Region0
import proofs.«172212_j60224031425326_2_alg».proof.Proof.Region1
import proofs.«172212_j60224031425326_2_alg».proof.Proof.Region2
import proofs.«172212_j60224031425326_2_alg».proof.Proof.Region3
import proofs.«172212_j60224031425326_2_alg».proof.Proof.Bridge
import proofs.«172212_j60224031425326_2_alg».proof.Proof.BridgePairs

set_option maxRecDepth 16384

noncomputable section

namespace Cert.KernelIdeal.Chain

open Cert.KernelIdeal Cert.KernelIdeal.Gen Cert.KernelIdeal.Stages
open Idealize.ShloMosaic Idealize.ShloMosaic.TcCoe Idealize.SL.Sem
open Cert.ReferenceIdeal.Read

variable (m : (ℓ : Loc nD τ sig) → Buf (Elt Ideal) ℓ) (ρ : Dev nD → PrngReg)

/-- After region 0 its result array holds the reference's features after the first layer. -/
theorem layer1 (c : Dev nD) : W2 m ρ c (Proc.devRef .tc main_v24) = val_main_v26 (F := Ideal) (a0 m c) (a1 m c) (a3 m c) (a4 m c) (a5 m c) := by
  have h := (W2_arr m ρ c 5).trans (Region0.final (V1 m ρ) c)
  have e0 : V1 m ρ c (Pipeline.arrRef spec0 0) = val_main_v13 (F := Ideal) (a0 m c) (a1 m c) := r0_a m ρ c
  have e1 : V1 m ρ c (Pipeline.arrRef spec0 1) = a0 m c := r0_x m ρ c
  have e2 := r0_u m ρ c
  have e3 := r0_v m ρ c
  have e4 := r0_b m ρ c
  change V1 m ρ c (Pipeline.arrRef spec0 2) = _ at e2
  change V1 m ρ c (Pipeline.arrRef spec0 3) = _ at e3
  change V1 m ρ c (Pipeline.arrRef spec0 4) = _ at e4
  rw [e0, e1, e2, e3, e4] at h
  exact h.trans ((Cert.Bridge.layer_eq _ _ _ _ _).trans (Cert.ReferenceIdeal.Layer.layer1_eq _ _ _ _ _).symm)

/-- After region 1 its result array holds the reference's features after the second layer. -/
theorem layer2 (c : Dev nD) : W4 m ρ c (Proc.devRef .tc main_v45) = val_main_v49 (F := Ideal) (a0 m c) (a1 m c) (a3 m c) (a4 m c) (a5 m c) := by
  have h := (W4_arr m ρ c 5).trans (Region1.final (V3 m ρ) c)
  have e0 : V3 m ρ c (Pipeline.arrRef spec1 0) = val_main_v36 (F := Ideal) (a0 m c) (a1 m c) (a3 m c) (a4 m c) (a5 m c) := by
    refine (r1_a m ρ c).trans ?_
    rw [layer1 m ρ c, ← Cert.ReferenceIdeal.Layer.agg2_eq]
  have e1 : V3 m ρ c (Pipeline.arrRef spec1 1) = val_main_v26 (F := Ideal) (a0 m c) (a1 m c) (a3 m c) (a4 m c) (a5 m c) := (r1_x m ρ c).trans (layer1 m ρ c)
  have e2 := r1_u m ρ c
  have e3 := r1_v m ρ c
  have e4 := r1_b m ρ c
  change V3 m ρ c (Pipeline.arrRef spec1 2) = _ at e2
  change V3 m ρ c (Pipeline.arrRef spec1 3) = _ at e3
  change V3 m ρ c (Pipeline.arrRef spec1 4) = _ at e4
  rw [e0, e1, e2, e3, e4] at h
  exact h.trans ((Cert.Bridge.layer_eq _ _ _ _ _).trans (Cert.ReferenceIdeal.Layer.layer2_eq _ _ _ _ _).symm)

/-- After region 2 its result array holds the reference's features after the third layer. -/
theorem layer3 (c : Dev nD) : W6 m ρ c (Proc.devRef .tc main_v66) = val_main_v72 (F := Ideal) (a0 m c) (a1 m c) (a3 m c) (a4 m c) (a5 m c) := by
  have h := (W6_arr m ρ c 5).trans (Region2.final (V5 m ρ) c)
  have e0 : V5 m ρ c (Pipeline.arrRef spec2 0) = val_main_v59 (F := Ideal) (a0 m c) (a1 m c) (a3 m c) (a4 m c) (a5 m c) := by
    refine (r2_a m ρ c).trans ?_
    rw [layer2 m ρ c, ← Cert.ReferenceIdeal.Layer.agg3_eq]
  have e1 : V5 m ρ c (Pipeline.arrRef spec2 1) = val_main_v49 (F := Ideal) (a0 m c) (a1 m c) (a3 m c) (a4 m c) (a5 m c) := (r2_x m ρ c).trans (layer2 m ρ c)
  have e2 := r2_u m ρ c
  have e3 := r2_v m ρ c
  have e4 := r2_b m ρ c
  change V5 m ρ c (Pipeline.arrRef spec2 2) = _ at e2
  change V5 m ρ c (Pipeline.arrRef spec2 3) = _ at e3
  change V5 m ρ c (Pipeline.arrRef spec2 4) = _ at e4
  rw [e0, e1, e2, e3, e4] at h
  exact h.trans ((Cert.Bridge.layer_eq _ _ _ _ _).trans (Cert.ReferenceIdeal.Layer.layer3_eq _ _ _ _ _).symm)

/-- Region 3 finds the third layer's features re-laid in pairs. -/
theorem pairs (c : Dev nD) : V7 m ρ c (Pipeline.arrRef spec3 0) = val_main_v73 (F := Ideal) (a0 m c) (a1 m c) (a3 m c) (a4 m c) (a5 m c) := by
  refine (r3_p m ρ c).trans ?_
  rw [layer3 m ρ c]
  rfl

/-- The four results. -/
theorem out_sig (c : Dev nD) : W8 m ρ c (Proc.devRef .tc main_v70_0)
    = val_main_v90 (F := Ideal) (a0 m c) (a1 m c) (a3 m c) (a4 m c) (a5 m c) (a6 m c) (a7 m c) := by
  have h := (W8_arr m ρ c 3).trans (Region3.final_sig (V7 m ρ) c)
  have e1 := r3_w m ρ c
  have e2 := r3_b m ρ c
  change V7 m ρ c (Pipeline.arrRef spec3 1) = _ at e1
  change V7 m ρ c (Pipeline.arrRef spec3 2) = _ at e2
  rw [pairs m ρ c, e1, e2] at h
  exact h.trans (Cert.Bridge.sig_eq _ _ _ _ _ _ _).symm

theorem out_dist (c : Dev nD) : W8 m ρ c (Proc.devRef .tc main_v70_1) = val_main_v80 (F := Ideal) (a0 m c) (a1 m c) (a3 m c) (a4 m c) (a5 m c) := by
  have h := (W8_arr m ρ c 4).trans (Region3.final_dist (V7 m ρ) c)
  rw [pairs m ρ c] at h
  exact h.trans (Cert.Bridge.dist_eq _ _ _ _ _).symm

theorem out_left (c : Dev nD) : W8 m ρ c (Proc.devRef .tc main_v70_2) = val_main_v74 (F := Ideal) (a0 m c) (a1 m c) (a3 m c) (a4 m c) (a5 m c) := by
  have h := (W8_arr m ρ c 5).trans (Region3.final_left (V7 m ρ) c)
  rw [pairs m ρ c] at h
  exact h.trans (Cert.Bridge.left_eq _ _ _ _ _).symm

theorem out_right (c : Dev nD) : W8 m ρ c (Proc.devRef .tc main_v70_3) = val_main_v75 (F := Ideal) (a0 m c) (a1 m c) (a3 m c) (a4 m c) (a5 m c) := by
  have h := (W8_arr m ρ c 6).trans (Region3.final_right (V7 m ρ) c)
  rw [pairs m ρ c] at h
  exact h.trans (Cert.Bridge.right_eq _ _ _ _ _).symm

end Cert.KernelIdeal.Chain

end
-- ==== Proof.lean ====
/-
  The certificate: the kernel (three graph-convolution layers and a pairwise last stage, each dense step in its own grid
  region, the neighbourhood sums and the re-layouts on the host between them) against the reference, over the extended
  reals.

  Frames.  The kernel's two frames are the generated ones; the reference's frame is its generated run with the results
  dropped.  The idealization rewrote nothing, so `preserves` asks nothing.
  Values.  Both programs run from memories that agree on the arguments.  The kernel's run ends with each result array at
  the last boundary's contents (`Values.run_named`), which are the reference's stages of the argument arrays
  (`Chain.out_*`): each layer is relu of the same three terms — the neighbourhood sum times one weight slice, the bias,
  the features times the other weight slice — added in two orders, and the last stage is the same distance and the same
  logistic function of the same sum.  The reference's run ends with each result at those stages of ITS arguments, which
  are the kernel's.  The precondition is not used: no step needs finiteness.
-/
import proofs.«172212_j60224031425326_2_alg».proof.Defs
import proofs.«172212_j60224031425326_2_alg».proof.Proof.Gen.Kernel
import proofs.«172212_j60224031425326_2_alg».proof.Proof.Gen.Kernel.Frame
import proofs.«172212_j60224031425326_2_alg».proof.Proof.Gen.KernelIdeal
import proofs.«172212_j60224031425326_2_alg».proof.Proof.Gen.KernelIdeal.Frame
import proofs.«172212_j60224031425326_2_alg».proof.Proof.Gen.ReferenceIdeal
import proofs.«172212_j60224031425326_2_alg».proof.Proof.Gen.Pre_finite_inputs
import proofs.«172212_j60224031425326_2_alg».proof.Proof.Gen.ReferenceIdeal.Run
import proofs.«172212_j60224031425326_2_alg».proof.Proof.Gen.ReferenceIdeal.Read
import proofs.«172212_j60224031425326_2_alg».proof.Proof.RunNamed
import proofs.«172212_j60224031425326_2_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Both programs end with the same four result arrays: the reference's stages of the (shared) argument arrays. -/
theorem algebraic : Cert.algebraic_KernelIdeal_ReferenceIdeal := by
  intro m ρ m' ρ' _ hagree
  refine ⟨fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Values.run_named (F := Ideal) m ρ)
    obtain ⟨h0, h1, h2, h3, hrest⟩ := h c
    exact ⟨h0.trans (Cert.KernelIdeal.Chain.out_sig m ρ c), h1.trans (Cert.KernelIdeal.Chain.out_dist m ρ c),
      h2.trans (Cert.KernelIdeal.Chain.out_left m ρ c), h3.trans (Cert.KernelIdeal.Chain.out_right m ρ c), hrest⟩
  · refine (θ_run Cert.ReferenceIdeal.defs _ _).mono (fun r h c => ?_) (Cert.ReferenceIdeal.Value.run (F := Ideal) m' ρ')
    obtain ⟨h0, h1, h2, h3, hrest⟩ := h c
    obtain ⟨g0, g1, g2, g3, g4, g5, g6, g7⟩ := hagree c
    refine ⟨h0.trans ?_, h1.trans ?_, h2.trans ?_, h3.trans ?_, hrest⟩
    · rw [Cert.ReferenceIdeal.Read.val_main_v90_eq, g0, g1, g3, g4, g5, g6, g7]
    · rw [Cert.ReferenceIdeal.Read.val_main_v80_eq, g0, g1, g3, g4, g5]
    · rw [Cert.ReferenceIdeal.Read.val_main_v74_eq, g0, g1, g3, g4, g5]
    · rw [Cert.ReferenceIdeal.Read.val_main_v75_eq, g0, g1, g3, g4, g5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
